-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S1x1 : Shape := ⟨2, ![1, 1]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1x1 : S_.BroadcastsInDim S1x1 (![] : Fin 0 → Fin S1x1.rank)
  reducesTo_S1x1_S_d0_1 : S1x1.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S512x128 .f32) (main_arg10 : FVec F S128 .f32) (main_arg11 : FVec F S128 .f32) (main_arg12 : FVec F S128 .f32) (main_v33 : IVec S_ 1) : IVec S_ 1 :=
  let main_v34 : FVec F S512x128 .f32 := Host.absf main_arg9
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S512 .f32) (main_arg7 : FVec F S512 .f32) (main_arg8 : FVec F S512 .f32) (main_arg9 : FVec F S512x128 .f32) (main_arg10 : FVec F S128 .f32) (main_arg11 : FVec F S128 .f32) (main_arg12 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S800000 .f32) (main_arg4 : FVec F S1x1 .f32) (main_arg5 : FVec F S128x512 .f32) (main_arg6 : FVec F S512 .f32) (main_arg7 : FVec F S512 .f32) (main_arg8 : FVec F S512 .f32) (main_arg9 : FVec F S512x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1x1 .f32 := Host.absf main_arg4
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S128x512 .f32 := Host.absf main_arg5
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S1x1 : Shape := ⟨2, ![1, 1]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S1x128 : Shape := ⟨2, ![1, 128]⟩

abbrev nBuf : Space → Nat
  | .hbm => 61
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S1x1, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x512, .f32⟩
  | .hbm, ⟨33, _⟩ => ⟨S50000x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | .hbm, ⟨39, _⟩ => ⟨S_, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x128, .f32⟩
  | .hbm, ⟨47, _⟩ => ⟨S50000x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S1x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x1_S50000x128_0_1 : S1x1.BroadcastsInDim S50000x128 (![0, 1] : Fin 2 → Fin S50000x128.rank)
  shapeCasts_S512_S1x512 : S512.ShapeCasts S1x512
  inb_S1x512_S1x512_0_0 : ∀ a, (![0, 0] : Fin 2 → Nat) a + S1x512.size a ≤ S1x512.size a
  h_S1x512 : 0 < S1x512.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  bcast_S_S1x512 : S_.BroadcastsInDim S1x512 (![] : Fin 0 → Fin S1x512.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v15) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S2000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v27_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S1x1 : Shape := ⟨2, ![1, 1]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x512 : Shape := ⟨2, ![50000, 512]⟩
abbrev S1x512 : Shape := ⟨2, ![1, 512]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S1x1, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x512, .f32⟩
  | .hbm, ⟨33, _⟩ => ⟨S1x512, .f32⟩
  | .hbm, ⟨34, _⟩ => ⟨S50000x512, .f32⟩
  | .hbm, ⟨35, _⟩ => ⟨S50000x512, .f32⟩
  | .hbm, ⟨36, _⟩ => ⟨S_, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S50000x512, .f32⟩
  | .hbm, ⟨43, _⟩ => ⟨S50000x512, .f32⟩
  | .hbm, ⟨44, _⟩ => ⟨S50000x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S1x512, .f32⟩
  | .hbm, ⟨51, _⟩ => ⟨S50000x512, .f32⟩
  | .hbm, ⟨52, _⟩ => ⟨S50000x512, .f32⟩
  | .hbm, ⟨53, _⟩ => ⟨S1x512, .f32⟩
  | .hbm, ⟨54, _⟩ => ⟨S50000x512, .f32⟩
  | .hbm, ⟨55, _⟩ => ⟨S50000x512, .f32⟩
  | .hbm, ⟨56, _⟩ => ⟨S_, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S1x512, .f32⟩
  | .hbm, ⟨61, _⟩ => ⟨S50000x512, .f32⟩
  | .hbm, ⟨62, _⟩ => ⟨S50000x512, .f32⟩
  | .hbm, ⟨63, _⟩ => ⟨S1x512, .f32⟩
  | .hbm, ⟨64, _⟩ => ⟨S50000x512, .f32⟩
  | .hbm, ⟨65, _⟩ => ⟨S50000x512, .f32⟩
  | .hbm, ⟨66, _⟩ => ⟨S_, .f32⟩
  | .hbm, ⟨67, _⟩ => ⟨S50000x512, .f32⟩
  | .hbm, ⟨68, _⟩ => ⟨S50000x512, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call0_cst : Ref sig .tc := ⟨.hbm, 66, rfl⟩
abbrev main_call0_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_cst : Ref sig .tc := ⟨.hbm, 103, rfl⟩
abbrev main_call1_v0 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x1_S50000x128_0_1 : S1x1.BroadcastsInDim S50000x128 (![0, 1] : Fin 2 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.NormLayers.lean ====
/-
  Two dense layers, each followed by a normalisation over the ROWS (every column is centred by its mean over all rows,
  scaled by the reciprocal square root of its variance plus a positive constant, then by a learned gain and shift) and a
  rectifier — stated on extended reals, for matrices given as functions of a row and a column.

  The variance of a column x₁ … x_R can be written in two ways:
    * the mean of the squared deviations,  (1/R) ∑ (x_r − μ)²   with μ = (1/R) ∑ x_r;
    * the mean of the squares minus the squared mean,  (1/R) ∑ x_r² − μ².
  On real numbers these agree (expand the square); on the extended reals they agree once every entry is a real number,
  and differ at infinities. So the two networks below — one with each formula — are equal as soon as the first dense
  layer's input, the weights, the biases and the FIRST stage's gain and shift are real: real entries stay real
  through a dense layer, a column mean, a variance (which is then non-negative, so its reciprocal square root after
  adding a positive constant is real) and the rectifier.
-/
import proofs.«147491_j1151051235411_1_alg».proof.Proof.LibMoments
import Idealize.ShloMosaic.Lib.ValueIdx

noncomputable section

namespace Cert.NormLayers

open Idealize.ShloMosaic Idealize.ShloMosaic.ValueIdx Cert.LibMoments
open scoped BigOperators

/-! ## Arrays read by row and column -/

/-- A rank-2 array as a function of its row and column. -/
def mat {a b : ℕ} (x : (⟨2, ![a, b]⟩ : Shape).Idx → EReal) : Fin a → Fin b → EReal := fun p q => x (ix2 p q)

/-- A rank-1 array as a function of its position. -/
def vec {a : ℕ} (x : (⟨1, ![a]⟩ : Shape).Idx → EReal) : Fin a → EReal := fun q => x (ix1 q)

/-- A one-row matrix as a function of the column. -/
def row {a : ℕ} (x : (⟨2, ![1, a]⟩ : Shape).Idx → EReal) : Fin a → EReal := fun q => x (ix2 0 q)

variable {R K H N : ℕ}

/-! ## The stages -/

/-- A dense layer: (A · W + b)(r, q) = ∑ₖ A(r, k) · W(k, q) + b(q). -/
def affine (A : Fin R → Fin K → EReal) (W : Fin K → Fin N → EReal) (b : Fin N → EReal) : Fin R → Fin N → EReal :=
  fun r q => (∑ k, A r k * W k q) + b q

/-- The sum of column q over all rows. -/
def colSum (X : Fin R → Fin N → EReal) (q : Fin N) : EReal := ∑ r, X r q

/-- The sum of the squares of column q over all rows. -/
def colSumSq (X : Fin R → Fin N → EReal) (q : Fin N) : EReal := ∑ r, X r q * X r q

/-- The mean of column q: its sum divided by c (the number of rows, as the program writes it). -/
def colMean (c : EReal) (X : Fin R → Fin N → EReal) (q : Fin N) : EReal := Ideal.div (colSum X q) c

/-- The variance of column q as the mean of the squared deviations from the mean. -/
def varDev (c : EReal) (X : Fin R → Fin N → EReal) (q : Fin N) : EReal :=
  Ideal.div (∑ r, (X r q - colMean c X q) * (X r q - colMean c X q)) c

/-- The variance of column q as the mean of the squares minus the squared mean. -/
def varMom (c : EReal) (X : Fin R → Fin N → EReal) (q : Fin N) : EReal :=
  Ideal.div (colSumSq X q) c - colMean c X q * colMean c X q

/-- Centre by mu, scale by the reciprocal square root of (va + e), apply the gain g and the shift bt, rectify. -/
def normRelu (e : EReal) (g bt mu va : Fin N → EReal) (X : Fin R → Fin N → EReal) : Fin R → Fin N → EReal :=
  fun r q => max (g q * (X r q - mu q) * Ideal.rsqrt (va q + e) + bt q) 0

/-- One normalised, rectified stage with the variance as the mean squared deviation. -/
def layerDev (c e : EReal) (g bt : Fin N → EReal) (X : Fin R → Fin N → EReal) : Fin R → Fin N → EReal :=
  normRelu e g bt (colMean c X) (varDev c X) X

/-- The same stage with the variance as the mean of squares minus the squared mean. -/
def layerMom (c e : EReal) (g bt : Fin N → EReal) (X : Fin R → Fin N → EReal) : Fin R → Fin N → EReal :=
  normRelu e g bt (colMean c X) (varMom c X) X

/-- Dense, normalise + rectify, dense, normalise + rectify — variances as mean squared deviations. -/
def netDev (c e : EReal) (A : Fin R → Fin K → EReal) (W1 : Fin K → Fin H → EReal) (b1 g1 t1 : Fin H → EReal)
    (W2 : Fin H → Fin N → EReal) (b2 g2 t2 : Fin N → EReal) : Fin R → Fin N → EReal :=
  layerDev c e g2 t2 (affine (layerDev c e g1 t1 (affine A W1 b1)) W2 b2)

/-- The same network with the variances as means of squares minus squared means. -/
def netMom (c e : EReal) (A : Fin R → Fin K → EReal) (W1 : Fin K → Fin H → EReal) (b1 g1 t1 : Fin H → EReal)
    (W2 : Fin H → Fin N → EReal) (b2 g2 t2 : Fin N → EReal) : Fin R → Fin N → EReal :=
  layerMom c e g2 t2 (affine (layerMom c e g1 t1 (affine A W1 b1)) W2 b2)

/-! ## Real entries stay real -/

theorem isR_affine {A : Fin R → Fin K → EReal} {W : Fin K → Fin N → EReal} {b : Fin N → EReal}
    (hA : ∀ r k, IsR (A r k)) (hW : ∀ k q, IsR (W k q)) (hb : ∀ q, IsR (b q)) : ∀ r q, IsR (affine A W b r q) :=
  fun r q => (IsR.sum _ fun k => (hA r k).mul (hW k q)).add (hb q)

theorem isR_colMean {X : Fin R → Fin N → EReal} (hX : ∀ r q, IsR (X r q)) (c : EReal) (hc : IsR c) (hc0 : c ≠ 0)
    (q : Fin N) : IsR (colMean c X q) :=
  (IsR.sum _ fun r => hX r q).div_real c hc hc0

/-- On columns of real numbers the two formulas for the variance agree. -/
theorem varDev_eq_varMom (X : Fin R → Fin N → EReal) (hX : ∀ r q, IsR (X r q)) (c : EReal)
    (hc : c = ((R : ℝ) : EReal)) (hR : (R : ℝ) ≠ 0) : varDev c X = varMom c X := by
  funext q
  exact variance_isR_of_eq R (fun p => X p q) (fun p => hX p q) c (R : ℝ) hc rfl hR

theorem layerMom_eq_layerDev (X : Fin R → Fin N → EReal) (hX : ∀ r q, IsR (X r q)) (c e : EReal)
    (hc : c = ((R : ℝ) : EReal)) (hR : (R : ℝ) ≠ 0) (g bt : Fin N → EReal) :
    layerMom c e g bt X = layerDev c e g bt X := by
  unfold layerMom layerDev
  rw [varDev_eq_varMom X hX c hc hR]

/-- A normalised, rectified stage of a real matrix with real gain and shift is a real matrix: the variance is a
    mean of squares of reals, so adding a positive real gives a positive real, whose reciprocal square root is real. -/
theorem isR_layerDev (X : Fin R → Fin N → EReal) (hX : ∀ r q, IsR (X r q)) (c e : EReal)
    (hc : c = ((R : ℝ) : EReal)) (hR : (0 : ℝ) < (R : ℝ)) (e' : ℝ) (he : e = (e' : EReal)) (he' : 0 < e')
    (g bt : Fin N → EReal) (hg : ∀ q, IsR (g q)) (hbt : ∀ q, IsR (bt q)) : ∀ r q, IsR (layerDev c e g bt X r q) := by
  intro r q
  subst hc he
  have hc0 : ((R : ℝ) : EReal) ≠ 0 := by exact_mod_cast hR.ne'
  have hmean : IsR (colMean ((R : ℝ) : EReal) X q) := isR_colMean hX _ (IsR.coe _) hc0 q
  have hrs : IsR (Ideal.rsqrt (varDev ((R : ℝ) : EReal) X q + (e' : EReal))) :=
    rsqrt_real R (fun p => X p q) (fun p => hX p q) (R : ℝ) hR e' he'
  exact ((((hg q).mul ((hX r q).sub hmean)).mul hrs).add (hbt q)).max IsR_zero

/-- The two networks agree when the input, the weights, the biases and the first stage's gain and shift are real. -/
theorem netMom_eq_netDev (c e : EReal) (hc : c = ((R : ℝ) : EReal)) (hR : (0 : ℝ) < (R : ℝ)) (e' : ℝ)
    (he : e = (e' : EReal)) (he' : 0 < e')
    (A : Fin R → Fin K → EReal) (W1 : Fin K → Fin H → EReal) (b1 g1 t1 : Fin H → EReal)
    (W2 : Fin H → Fin N → EReal) (b2 g2 t2 : Fin N → EReal)
    (hA : ∀ r k, IsR (A r k)) (hW1 : ∀ k q, IsR (W1 k q)) (hb1 : ∀ q, IsR (b1 q)) (hg1 : ∀ q, IsR (g1 q))
    (ht1 : ∀ q, IsR (t1 q)) (hW2 : ∀ k q, IsR (W2 k q)) (hb2 : ∀ q, IsR (b2 q)) :
    netMom c e A W1 b1 g1 t1 W2 b2 g2 t2 = netDev c e A W1 b1 g1 t1 W2 b2 g2 t2 := by
  unfold netMom netDev
  have h1 : ∀ r q, IsR (affine A W1 b1 r q) := isR_affine hA hW1 hb1
  rw [layerMom_eq_layerDev (affine A W1 b1) h1 c e hc hR.ne' g1 t1]
  have h2 : ∀ r q, IsR (layerDev c e g1 t1 (affine A W1 b1) r q) :=
    isR_layerDev _ h1 c e hc hR e' he he' g1 t1 hg1 ht1
  have h3 : ∀ r q, IsR (affine (layerDev c e g1 t1 (affine A W1 b1)) W2 b2 r q) := isR_affine h2 hW2 hb2
  rw [layerMom_eq_layerDev _ h3 c e hc hR.ne' g2 t2]

end Cert.NormLayers

end
-- ==== Proof.FiniteArgs.lean ====
/-
  The precondition, decoded. The claims are stated under "every float argument holds finite numbers": for each of
  the eleven float arguments x, all (|x| < +∞), the eleven answers conjoined. Over the extended reals |x| is
  max x (−x), the bound is the extended real +∞ (the pattern 0x7F800000 read as a float), and an extended real whose
  absolute value lies strictly below +∞ is neither +∞ nor −∞: it is a real number.

  * One element: max x (−x) < ⊤ gives x real (the two infinities both have absolute value ⊤).
  * One array, of any shape: a conjunction over every index that came out true was true at every index, so every
    element is real.
  * The eleven arrays: the precondition's word is a left-nested conjunction of eleven such answers; split it.
-/
import proofs.«147491_j1151051235411_1_alg».proof.Defs
import proofs.«147491_j1151051235411_1_alg».proof.Proof.LibMoments
import Idealize.ShloMosaic.Lib.ReduceAll
import Idealize.ShloMosaic.Lib.ValueIdx

noncomputable section

namespace Cert.FiniteArgs

open Idealize.ShloMosaic Idealize.SL.Sem Cert.LibMoments

/-- The shape of a scalar has exactly one index. -/
instance subsingleton_scalar_idx : Subsingleton Cert.Pre_finite_inputs.S_.Idx :=
  ⟨fun a b => funext fun d => d.elim0⟩

/-- The f32 pattern 0x7F800000 denotes +∞. -/
theorem ofBits_inf : Ideal.ofBits .f32 0x7F800000#32 = ⊤ := by
  simp [Ideal.ofBits, Ideal.ieee]

/-- A one-bit word made from a truth value is 1 exactly when the value is true. -/
theorem ofBool_eq_one {b : Bool} : BitVec.ofBool b = 1#1 ↔ b = true := by cases b <;> decide

/-- An extended real whose absolute value max x (−x) lies strictly below +∞ is a real number:
    at x = −∞ the maximum is −(−∞) = +∞, at x = +∞ it is +∞. -/
theorem isR_of_abs_lt_top (x : EReal) (h : max x (-x) < ⊤) : IsR x := by
  induction x using EReal.rec with
  | bot => simp at h
  | coe r => exact ⟨r, rfl⟩
  | top => simp at h

/-- The same, from the comparison's one-bit answer: |x| < (the float +∞) answered 1. -/
theorem isR_of_cmp (x : EReal)
    (h : FloatOps.cmpf (F := Ideal) (φ := .f32) .olt (FloatOps.hostAbsf x) (FloatOps.ofBits .f32 0x7F800000#32) = 1#1) :
    IsR x := by
  have h' : BitVec.ofBool (decide (max x (-x) < Ideal.ofBits .f32 0x7F800000#32)) = 1#1 := h
  rw [ofBits_inf, ofBool_eq_one, decide_eq_true_eq] at h'
  exact isR_of_abs_lt_top x h'

/-- One argument, any shape: if the conjunction over all indices of |x i| < +∞ is 1, every x i is a real number. -/
theorem isR_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant Cert.Pre_finite_inputs.S_ .f32 0x7F800000#32)))
        (constantI Cert.Pre_finite_inputs.S_ 1 1#1) hr hu ValueIdx.ix0 = 1#1) :
    ∀ i, IsR (x i) := fun i =>
  isR_of_cmp (x i) (Host.reduce_andi_all _ _ hr hu ValueIdx.ix0 e i)

/-- The conjunction of two one-bit arrays is 1 at an index exactly when both are. -/
theorem andi_apply_eq_one {s : Shape} (x y : IVec s 1) (i : s.Idx) :
    andi x y i = 1#1 ↔ x i = 1#1 ∧ y i = 1#1 := IntOp.andi_eq_one

variable [hPre_finite_inputs : Cert.Pre_finite_inputs.Facts]

/-- Under the precondition every element of every float argument is a real number. -/
theorem real_args (m : (ℓ : Loc Cert.KernelIdeal.nD Cert.KernelIdeal.τ Cert.KernelIdeal.sig) → Buf (Elt Ideal) ℓ)
    (c : Dev Cert.KernelIdeal.nD) (hpre : Cert.Pre_KernelIdeal m) :
    (∀ i, IsR (m ((c.tc : Thread Cert.KernelIdeal.nD Cert.KernelIdeal.τ).loc Cert.KernelIdeal.main_arg0) i))
    ∧ (∀ i, IsR (m ((c.tc : Thread Cert.KernelIdeal.nD Cert.KernelIdeal.τ).loc Cert.KernelIdeal.main_arg3) i))
    ∧ (∀ i, IsR (m ((c.tc : Thread Cert.KernelIdeal.nD Cert.KernelIdeal.τ).loc Cert.KernelIdeal.main_arg4) i))
    ∧ (∀ i, IsR (m ((c.tc : Thread Cert.KernelIdeal.nD Cert.KernelIdeal.τ).loc Cert.KernelIdeal.main_arg5) i))
    ∧ (∀ i, IsR (m ((c.tc : Thread Cert.KernelIdeal.nD Cert.KernelIdeal.τ).loc Cert.KernelIdeal.main_arg6) i))
    ∧ (∀ i, IsR (m ((c.tc : Thread Cert.KernelIdeal.nD Cert.KernelIdeal.τ).loc Cert.KernelIdeal.main_arg7) i))
    ∧ (∀ i, IsR (m ((c.tc : Thread Cert.KernelIdeal.nD Cert.KernelIdeal.τ).loc Cert.KernelIdeal.main_arg8) i))
    ∧ (∀ i, IsR (m ((c.tc : Thread Cert.KernelIdeal.nD Cert.KernelIdeal.τ).loc Cert.KernelIdeal.main_arg9) i))
    ∧ (∀ i, IsR (m ((c.tc : Thread Cert.KernelIdeal.nD Cert.KernelIdeal.τ).loc Cert.KernelIdeal.main_arg10) i))
    ∧ (∀ i, IsR (m ((c.tc : Thread Cert.KernelIdeal.nD Cert.KernelIdeal.τ).loc Cert.KernelIdeal.main_arg11) i))
    ∧ (∀ i, IsR (m ((c.tc : Thread Cert.KernelIdeal.nD Cert.KernelIdeal.τ).loc Cert.KernelIdeal.main_arg12) i)) := by
  have h := congrFun (hpre c) ValueIdx.ix0
  dsimp only [Cert.Pre_finite_inputs.fn, Cert.Pre_finite_inputs.fn_part1, Cert.Pre_finite_inputs.fn_part2,
    Cert.Pre_finite_inputs.fn_part3] at h
  obtain ⟨h, h12⟩ := (andi_apply_eq_one _ _ _).1 h
  obtain ⟨h, h11⟩ := (andi_apply_eq_one _ _ _).1 h
  obtain ⟨h, h10⟩ := (andi_apply_eq_one _ _ _).1 h
  obtain ⟨h, h9⟩ := (andi_apply_eq_one _ _ _).1 h
  obtain ⟨h, h8⟩ := (andi_apply_eq_one _ _ _).1 h
  obtain ⟨h, h7⟩ := (andi_apply_eq_one _ _ _).1 h
  obtain ⟨h, h6⟩ := (andi_apply_eq_one _ _ _).1 h
  obtain ⟨h, h5⟩ := (andi_apply_eq_one _ _ _).1 h
  obtain ⟨h, h4⟩ := (andi_apply_eq_one _ _ _).1 h
  obtain ⟨h0, h3⟩ := (andi_apply_eq_one _ _ _).1 h
  exact ⟨isR_of_all _ _ _ _ h0, isR_of_all _ _ _ _ h3, isR_of_all _ _ _ _ h4, isR_of_all _ _ _ _ h5,
    isR_of_all _ _ _ _ h6, isR_of_all _ _ _ _ h7, isR_of_all _ _ _ _ h8, isR_of_all _ _ _ _ h9,
    isR_of_all _ _ _ _ h10, isR_of_all _ _ _ _ h11, isR_of_all _ _ _ _ h12⟩

/-! ### The eleven arguments one at a time -/

theorem real_arg0 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg0) i) :=
  (real_args m c hpre).1

theorem real_arg3 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg3) i) :=
  (real_args m c hpre).2.1

theorem real_arg4 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg4) i) :=
  (real_args m c hpre).2.2.1

theorem real_arg5 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg5) i) :=
  (real_args m c hpre).2.2.2.1

theorem real_arg6 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg6) i) :=
  (real_args m c hpre).2.2.2.2.1

theorem real_arg7 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg7) i) :=
  (real_args m c hpre).2.2.2.2.2.1

theorem real_arg8 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg8) i) :=
  (real_args m c hpre).2.2.2.2.2.2.1

theorem real_arg9 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg9) i) :=
  (real_args m c hpre).2.2.2.2.2.2.2.1

theorem real_arg10 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg10) i) :=
  (real_args m c hpre).2.2.2.2.2.2.2.2.1

theorem real_arg11 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg11) i) :=
  (real_args m c hpre).2.2.2.2.2.2.2.2.2.1

theorem real_arg12 (m : (ℓ : Loc Cert.KernelIdeal.nD Cert.KernelIdeal.τ Cert.KernelIdeal.sig) → Buf (Elt Ideal) ℓ)
    (c : Dev Cert.KernelIdeal.nD) (hpre : Cert.Pre_KernelIdeal m) :
    ∀ i, IsR (m ((c.tc : Thread Cert.KernelIdeal.nD Cert.KernelIdeal.τ).loc Cert.KernelIdeal.main_arg12) i) :=
  (real_args m c hpre).2.2.2.2.2.2.2.2.2.2

end Cert.FiniteArgs

end
-- ==== Proof.LibRealArrays.lean ====
/-
  GENERAL lemmas: "real entries in, real entries out" for host operations on arrays of extended reals (the exact
  operations), at any shapes and dimension records.

  * A gather only selects: every element of the result is an element of the operand.
  * An accumulating scatter: each element of the result is the operand's element plus a finite sum of update
    elements.
  * A host sum: each element of the result is the initial value plus a finite sum of operand elements.
  * A contraction (host product, or matrix product onto an accumulator): a finite sum of products (plus the
    accumulator's element).
  Finite sums and products of reals are reals.
-/
import proofs.«147491_j1151051235411_1_alg».proof.Proof.LibMoments
import Idealize.ShloMosaic.PureOps.Ideal
import Idealize.ShloMosaic.PureOps.Ideal.Laws

noncomputable section

namespace Cert.LibMoments

open Idealize.ShloMosaic
open scoped BigOperators

/-- Every element of a gather is an element of the operand. -/
theorem isR_gather {s si t : Shape} (d : GatherDims s si t) (x : s.Idx → EReal) (hx : ∀ i, IsR (x i)) {w : Nat}
    (idx : IVec si w) (j : t.Idx) : IsR (Host.gather d x idx j) :=
  hx _

/-- An accumulating scatter of reals into reals gives reals: the operand's element plus a finite sum of updates. -/
theorem isR_scatterAdd {s si su : Shape} {φ : FTy} (d : ScatterDims s si su) (x : FVec Ideal s φ) (hx : ∀ i, IsR (x i))
    {w : Nat} (idx : IVec si w) (u : FVec Ideal su φ) (hu : ∀ j, IsR (u j)) (i : s.Idx) :
    IsR (Host.scatterAdd (F := Ideal) d x idx u i) := by
  show IsR (Ideal.hostScatterAdd d x idx u i)
  unfold Ideal.hostScatterAdd
  exact (hx i).add (IsR.finset_sum _ _ fun j _ => hu j)

/-- The same at any schedule key. -/
theorem isR_scatterAddAt (sched : HostSchedule) {s si su : Shape} {φ : FTy} (d : ScatterDims s si su) (x : FVec Ideal s φ)
    (hx : ∀ i, IsR (x i)) {w : Nat} (idx : IVec si w) (u : FVec Ideal su φ) (hu : ∀ j, IsR (u j)) (i : s.Idx) :
    IsR (Host.scatterAddAt (F := Ideal) sched d x idx u i) := by
  show IsR (Ideal.hostScatterAdd d x idx u i)
  unfold Ideal.hostScatterAdd
  exact (hx i).add (IsR.finset_sum _ _ fun j _ => hu j)

/-- A host sum of reals from a real initial value gives reals. -/
theorem isR_reduceAdd {s t u : Shape} {φ : FTy} {axes : List (Fin s.rank)} (x : FVec Ideal s φ) (hx : ∀ i, IsR (x i))
    (init : u.Idx → Ideal φ) (hinit : ∀ k, IsR (init k)) (h : s.ReducesTo axes t) (hu : 0 < u.numel) (j : t.Idx) :
    IsR (Host.reduceAdd (F := Ideal) x init h hu j) := by
  show IsR (Ideal.hostReduceAdd h x (init (Shape.Idx.first hu)) j)
  unfold Ideal.hostReduceAdd
  exact (hinit _).add (IsR.finset_sum _ _ fun i _ => hx i)

/-- A host product of arrays of reals is an array of reals. -/
theorem isR_dotGeneral {sl sr so : Shape} {φ₁ φ₂ : FTy} (d : DotDims sl sr so) (prec : Option ContractPrecision)
    (sched : HostSchedule) (lhs : FVec Ideal sl φ₁) (hl : ∀ i, IsR (lhs i)) (rhs : FVec Ideal sr φ₂) (hr : ∀ i, IsR (rhs i))
    (j : so.Idx) : IsR (FloatOps.dotGeneral d prec sched lhs rhs j) := by
  rw [Ideal.dotGeneral_apply]
  exact IsR.sum _ fun k => (hl _).mul (hr _)

/-- A matrix product of arrays of reals onto an accumulator of reals is an array of reals. -/
theorem isR_matmul {sl sr so : Shape} {φ₁ φ₂ : FTy} (d : DotDims sl sr so) (prec : Option ContractPrecision)
    (lhs : FVec Ideal sl φ₁) (hl : ∀ i, IsR (lhs i)) (rhs : FVec Ideal sr φ₂) (hr : ∀ i, IsR (rhs i))
    (acc : FVec Ideal so .f32) (hacc : ∀ j, IsR (acc j)) (j : so.Idx) : IsR (FloatOps.matmul d prec lhs rhs acc j) := by
  rw [Ideal.matmul_apply]
  exact (hacc j).add (IsR.sum _ fun k => (hl _).mul (hr _))

end Cert.LibMoments

end
-- ==== Proof.RefStages.lean ====
/-
  The reference network read index by index.

  The reference computes, from the aggregated features A (a 50000 x 128 matrix), a dense layer A * W1 + b1, a
  normalisation of every column over the 50000 rows (centre by the column mean, scale by the reciprocal square root
  of the column variance plus a small positive constant, apply a gain and a shift), a rectifier, and then the same
  three steps once more with W2, b2 and the second gain and shift. Each stage of the program is an array; read at an
  index (r, k) or (k) it is the corresponding expression of the specification in NormLayers, by induction along the
  program: a broadcast only re-indexes, an elementwise operation acts at the index, a column sum is a finite sum over
  the rows, and the product of two matrices at (r, q) is the sum over k of l(r, k) * w(k, q).

  The aggregation stage itself (a gather, a product with the edge weights, an accumulating scatter into zeros, plus
  a multiple of the features) is kept as one opaque matrix; the second part shows its entries are real numbers when
  the features, the edge weights and the multiplier are.
-/
import proofs.«147491_j1151051235411_1_alg».proof.Proof.Gen.ReferenceIdeal.Read
import proofs.«147491_j1151051235411_1_alg».proof.Proof.NormLayers
import proofs.«147491_j1151051235411_1_alg».proof.Proof.LibMoments
import proofs.«147491_j1151051235411_1_alg».proof.Proof.LibRealArrays
import Idealize.ShloMosaic.Lib.ValueIdx
import Idealize.ShloMosaic.PureOps.Ideal.Laws

noncomputable section

namespace Cert.ReferenceIdeal.RefStages

open Cert.ReferenceIdeal Idealize.ShloMosaic Idealize.ShloMosaic.ValueIdx Cert.NormLayers Cert.LibMoments
open scoped BigOperators

local notation "w50000" => (Ideal.ofBits FTy.f32 0x47435000#32 : EReal)
local notation "weps" => (Ideal.ofBits FTy.f32 0x3727C5AC#32 : EReal)

/-! ## Indices: the program's index maps at an index given by its coordinates -/

theorem lidx16 (r : Fin 50000) (q : Fin 512) (k : Fin 128) : Read.lidx_main_v16 (ix2 r q) k = ix2 r k := by
  funext a; match a with | ⟨0, _⟩ => rfl | ⟨1, _⟩ => rfl

theorem ridx16 (r : Fin 50000) (q : Fin 512) (k : Fin 128) : Read.ridx_main_v16 (ix2 r q) k = ix2 k q := by
  funext a; match a with | ⟨0, _⟩ => rfl | ⟨1, _⟩ => rfl

theorem idx17_18 (r : Fin 50000) (q : Fin 512) : Read.idx_main_v17 (Read.idx_main_v18 (ix2 r q)) = ix1 q := by
  funext a; match a with | ⟨0, _⟩ => rfl

theorem idx23_24 (r : Fin 50000) (q : Fin 512) : Read.idx_main_v23 (Read.idx_main_v24 (ix2 r q)) = ix1 q := by
  funext a; match a with | ⟨0, _⟩ => rfl

theorem idx30_31 (r : Fin 50000) (q : Fin 512) : Read.idx_main_v30 (Read.idx_main_v31 (ix2 r q)) = ix1 q := by
  funext a; match a with | ⟨0, _⟩ => rfl

theorem idx33_34 (r : Fin 50000) (q : Fin 512) : Read.idx_main_v33 (Read.idx_main_v34 (ix2 r q)) = ix1 q := by
  funext a; match a with | ⟨0, _⟩ => rfl

theorem idx39_40 (r : Fin 50000) (q : Fin 512) : Read.idx_main_v39 (Read.idx_main_v40 (ix2 r q)) = ix1 q := by
  funext a; match a with | ⟨0, _⟩ => rfl

theorem idx42_43 (r : Fin 50000) (q : Fin 512) : Read.idx_main_v42 (Read.idx_main_v43 (ix2 r q)) = ix1 q := by
  funext a; match a with | ⟨0, _⟩ => rfl

theorem idx20 (q : Fin 512) (r : Fin 50000) : Read.idx_main_v20 (ix1 q) r = ix2 r q := by
  funext a; match a with | ⟨0, _⟩ => rfl | ⟨1, _⟩ => rfl

theorem idx27 (q : Fin 512) (r : Fin 50000) : Read.idx_main_v27 (ix1 q) r = ix2 r q := by
  funext a; match a with | ⟨0, _⟩ => rfl | ⟨1, _⟩ => rfl

theorem lidx46 (r : Fin 50000) (q : Fin 128) (k : Fin 512) : Read.lidx_main_v46 (ix2 r q) k = ix2 r k := by
  funext a; match a with | ⟨0, _⟩ => rfl | ⟨1, _⟩ => rfl

theorem ridx46 (r : Fin 50000) (q : Fin 128) (k : Fin 512) : Read.ridx_main_v46 (ix2 r q) k = ix2 k q := by
  funext a; match a with | ⟨0, _⟩ => rfl | ⟨1, _⟩ => rfl

theorem idx47_48 (r : Fin 50000) (q : Fin 128) : Read.idx_main_v47 (Read.idx_main_v48 (ix2 r q)) = ix1 q := by
  funext a; match a with | ⟨0, _⟩ => rfl

theorem idx53_54 (r : Fin 50000) (q : Fin 128) : Read.idx_main_v53 (Read.idx_main_v54 (ix2 r q)) = ix1 q := by
  funext a; match a with | ⟨0, _⟩ => rfl

theorem idx60_61 (r : Fin 50000) (q : Fin 128) : Read.idx_main_v60 (Read.idx_main_v61 (ix2 r q)) = ix1 q := by
  funext a; match a with | ⟨0, _⟩ => rfl

theorem idx63_64 (r : Fin 50000) (q : Fin 128) : Read.idx_main_v63 (Read.idx_main_v64 (ix2 r q)) = ix1 q := by
  funext a; match a with | ⟨0, _⟩ => rfl

theorem idx69_70 (r : Fin 50000) (q : Fin 128) : Read.idx_main_v69 (Read.idx_main_v70 (ix2 r q)) = ix1 q := by
  funext a; match a with | ⟨0, _⟩ => rfl

theorem idx72_73 (r : Fin 50000) (q : Fin 128) : Read.idx_main_v72 (Read.idx_main_v73 (ix2 r q)) = ix1 q := by
  funext a; match a with | ⟨0, _⟩ => rfl

theorem idx50 (q : Fin 128) (r : Fin 50000) : Read.idx_main_v50 (ix1 q) r = ix2 r q := by
  funext a; match a with | ⟨0, _⟩ => rfl | ⟨1, _⟩ => rfl

theorem idx57 (q : Fin 128) (r : Fin 50000) : Read.idx_main_v57 (ix1 q) r = ix2 r q := by
  funext a; match a with | ⟨0, _⟩ => rfl | ⟨1, _⟩ => rfl

variable (x0 : (⟨S50000x128, .f32⟩ : BufTy).Contents (Elt Ideal)) (x1 x2 : (⟨S800000, .i32⟩ : BufTy).Contents (Elt Ideal))
  (x3 : (⟨S800000, .f32⟩ : BufTy).Contents (Elt Ideal)) (x4 : (⟨S1x1, .f32⟩ : BufTy).Contents (Elt Ideal))
  (x5 : (⟨S128x512, .f32⟩ : BufTy).Contents (Elt Ideal)) (x6 x7 x8 : (⟨S512, .f32⟩ : BufTy).Contents (Elt Ideal))
  (x9 : (⟨S512x128, .f32⟩ : BufTy).Contents (Elt Ideal)) (x10 x11 x12 : (⟨S128, .f32⟩ : BufTy).Contents (Elt Ideal))

local notation "Z1" => affine (mat (Read.val_main_v15 (F := Ideal) x0 x1 x2 x3 x4)) (mat x5) (vec x6)
local notation "Y1" => layerDev w50000 weps (vec x7) (vec x8) Z1
local notation "Z2" => affine Y1 (mat x9) (vec x10)

/-! ## The first layer -/

/-- The dense layer: the matrix product at (r, k) is the sum over the contracted axis; the bias is broadcast along the rows. -/
theorem v19_at (r : Fin 50000) (k : Fin 512) :
    Read.val_main_v19 (F := Ideal) x0 x1 x2 x3 x4 x5 x6 (ix2 r k) = Z1 r k := by
  rw [Read.val_main_v19_apply, Read.val_main_v16_apply, Read.val_main_v18_apply, Read.val_main_v17_apply, idx17_18]
  simp only [lidx16, ridx16, Ideal.addf_def]
  rfl

/-- The column sums: the sum from the zero word over the rows. -/
theorem v20_at (k : Fin 512) :
    Read.val_main_v20 (F := Ideal) x0 x1 x2 x3 x4 x5 x6 (ix1 k) = colSum Z1 k := by
  rw [Read.val_main_v20_apply, Read.val_main_cst_1_apply, Ideal.ofBits_def, Ideal.ofBits_zero_f32, zero_add]
  show _ = ∑ r, Z1 r k
  refine Finset.sum_congr rfl fun r _ => ?_
  rw [idx20, v19_at]

/-- The column means. -/
theorem v22_at (k : Fin 512) :
    Read.val_main_v22 (F := Ideal) x0 x1 x2 x3 x4 x5 x6 (ix1 k) = colMean w50000 Z1 k := by
  rw [Read.val_main_v22_apply, Read.val_main_v21_apply, Read.val_main_cst_2_apply, Ideal.hostDivf_def, Ideal.ofBits_def, v20_at] <;> rfl

/-- The deviations from the column means. -/
theorem v25_at (r : Fin 50000) (k : Fin 512) :
    Read.val_main_v25 (F := Ideal) x0 x1 x2 x3 x4 x5 x6 (ix2 r k) = Z1 r k - colMean w50000 Z1 k := by
  rw [Read.val_main_v25_apply, Read.val_main_v24_apply, Read.val_main_v23_apply, idx23_24, Ideal.subf_def, v19_at, v22_at] <;> rfl

/-- The column sums of the squared deviations. -/
theorem v27_at (k : Fin 512) :
    Read.val_main_v27 (F := Ideal) x0 x1 x2 x3 x4 x5 x6 (ix1 k)
      = ∑ r, (Z1 r k - colMean w50000 Z1 k) * (Z1 r k - colMean w50000 Z1 k) := by
  rw [Read.val_main_v27_apply, Read.val_main_cst_3_apply, Ideal.ofBits_def, Ideal.ofBits_zero_f32, zero_add]
  refine Finset.sum_congr rfl fun r _ => ?_
  rw [idx27, Read.val_main_v26_apply, Ideal.mulf_def, v25_at]

/-- The column variances (mean squared deviation). -/
theorem v29_at (k : Fin 512) :
    Read.val_main_v29 (F := Ideal) x0 x1 x2 x3 x4 x5 x6 (ix1 k) = varDev w50000 Z1 k := by
  rw [Read.val_main_v29_apply, Read.val_main_v28_apply, Read.val_main_cst_4_apply, Ideal.hostDivf_def, Ideal.ofBits_def, v27_at] <;> rfl

/-- The deviations once more (the program recomputes them for the normalised value). -/
theorem v32_at (r : Fin 50000) (k : Fin 512) :
    Read.val_main_v32 (F := Ideal) x0 x1 x2 x3 x4 x5 x6 (ix2 r k) = Z1 r k - colMean w50000 Z1 k := by
  rw [Read.val_main_v32_apply, Read.val_main_v31_apply, Read.val_main_v30_apply, idx30_31, Ideal.subf_def, v19_at, v22_at] <;> rfl

/-- The gain times the deviation. -/
theorem v35_at (r : Fin 50000) (k : Fin 512) :
    Read.val_main_v35 (F := Ideal) x0 x1 x2 x3 x4 x5 x6 x7 (ix2 r k) = vec x7 k * (Z1 r k - colMean w50000 Z1 k) := by
  rw [Read.val_main_v35_apply, Read.val_main_v34_apply, Read.val_main_v33_apply, idx33_34, Ideal.mulf_def, v32_at] <;> rfl

/-- The reciprocal square root of the variance plus the small constant. -/
theorem v38_at (k : Fin 512) :
    Read.val_main_v38 (F := Ideal) x0 x1 x2 x3 x4 x5 x6 (ix1 k) = Ideal.rsqrt (varDev w50000 Z1 k + weps) := by
  rw [Read.val_main_v38_apply, Ideal.hostUnary_rsqrt_def, Read.val_main_v37_apply, Ideal.addf_def, Read.val_main_v36_apply, Read.val_main_cst_5_apply, Ideal.ofBits_def,
    v29_at] <;> rfl

/-- The scaled, centred value. -/
theorem v41_at (r : Fin 50000) (k : Fin 512) :
    Read.val_main_v41 (F := Ideal) x0 x1 x2 x3 x4 x5 x6 x7 (ix2 r k)
      = vec x7 k * (Z1 r k - colMean w50000 Z1 k) * Ideal.rsqrt (varDev w50000 Z1 k + weps) := by
  rw [Read.val_main_v41_apply, Read.val_main_v40_apply, Read.val_main_v39_apply, idx39_40, Ideal.mulf_def, v35_at, v38_at] <;> rfl

/-- The normalised value: the shift added. -/
theorem v44_at (r : Fin 50000) (k : Fin 512) :
    Read.val_main_v44 (F := Ideal) x0 x1 x2 x3 x4 x5 x6 x7 x8 (ix2 r k)
      = vec x7 k * (Z1 r k - colMean w50000 Z1 k) * Ideal.rsqrt (varDev w50000 Z1 k + weps) + vec x8 k := by
  rw [Read.val_main_v44_apply, Read.val_main_v43_apply, Read.val_main_v42_apply, idx42_43, Ideal.addf_def, v41_at] <;> rfl

/-- The rectifier: the maximum with the zero word. -/
theorem v45_at (r : Fin 50000) (k : Fin 512) :
    Read.val_main_v45 (F := Ideal) x0 x1 x2 x3 x4 x5 x6 x7 x8 (ix2 r k)
      = layerDev w50000 weps (vec x7) (vec x8) Z1 r k := by
  rw [Read.val_main_v45_apply, Read.val_main_call0_v0_apply, Read.val_main_call0_cst_apply, Ideal.ofBits_def,
    Ideal.ofBits_zero_f32, Ideal.maximumf_def, v44_at] <;> rfl

/-! ## The second layer -/

/-- The dense layer: the matrix product at (r, k) is the sum over the contracted axis; the bias is broadcast along the rows. -/
theorem v49_at (r : Fin 50000) (k : Fin 128) :
    Read.val_main_v49 (F := Ideal) x0 x1 x2 x3 x4 x5 x6 x7 x8 x9 x10 (ix2 r k) = Z2 r k := by
  rw [Read.val_main_v49_apply, Read.val_main_v46_apply, Read.val_main_v48_apply, Read.val_main_v47_apply, idx47_48]
  simp only [lidx46, ridx46, Ideal.addf_def, v45_at]
  rfl

/-- The column sums: the sum from the zero word over the rows. -/
theorem v50_at (k : Fin 128) :
    Read.val_main_v50 (F := Ideal) x0 x1 x2 x3 x4 x5 x6 x7 x8 x9 x10 (ix1 k) = colSum Z2 k := by
  rw [Read.val_main_v50_apply, Read.val_main_cst_6_apply, Ideal.ofBits_def, Ideal.ofBits_zero_f32, zero_add]
  show _ = ∑ r, Z2 r k
  refine Finset.sum_congr rfl fun r _ => ?_
  rw [idx50, v49_at]

/-- The column means. -/
theorem v52_at (k : Fin 128) :
    Read.val_main_v52 (F := Ideal) x0 x1 x2 x3 x4 x5 x6 x7 x8 x9 x10 (ix1 k) = colMean w50000 Z2 k := by
  rw [Read.val_main_v52_apply, Read.val_main_v51_apply, Read.val_main_cst_7_apply, Ideal.hostDivf_def, Ideal.ofBits_def, v50_at] <;> rfl

/-- The deviations from the column means. -/
theorem v55_at (r : Fin 50000) (k : Fin 128) :
    Read.val_main_v55 (F := Ideal) x0 x1 x2 x3 x4 x5 x6 x7 x8 x9 x10 (ix2 r k) = Z2 r k - colMean w50000 Z2 k := by
  rw [Read.val_main_v55_apply, Read.val_main_v54_apply, Read.val_main_v53_apply, idx53_54, Ideal.subf_def, v49_at, v52_at] <;> rfl

/-- The column sums of the squared deviations. -/
theorem v57_at (k : Fin 128) :
    Read.val_main_v57 (F := Ideal) x0 x1 x2 x3 x4 x5 x6 x7 x8 x9 x10 (ix1 k)
      = ∑ r, (Z2 r k - colMean w50000 Z2 k) * (Z2 r k - colMean w50000 Z2 k) := by
  rw [Read.val_main_v57_apply, Read.val_main_cst_8_apply, Ideal.ofBits_def, Ideal.ofBits_zero_f32, zero_add]
  refine Finset.sum_congr rfl fun r _ => ?_
  rw [idx57, Read.val_main_v56_apply, Ideal.mulf_def, v55_at]

/-- The column variances (mean squared deviation). -/
theorem v59_at (k : Fin 128) :
    Read.val_main_v59 (F := Ideal) x0 x1 x2 x3 x4 x5 x6 x7 x8 x9 x10 (ix1 k) = varDev w50000 Z2 k := by
  rw [Read.val_main_v59_apply, Read.val_main_v58_apply, Read.val_main_cst_9_apply, Ideal.hostDivf_def, Ideal.ofBits_def, v57_at] <;> rfl

/-- The deviations once more (the program recomputes them for the normalised value). -/
theorem v62_at (r : Fin 50000) (k : Fin 128) :
    Read.val_main_v62 (F := Ideal) x0 x1 x2 x3 x4 x5 x6 x7 x8 x9 x10 (ix2 r k) = Z2 r k - colMean w50000 Z2 k := by
  rw [Read.val_main_v62_apply, Read.val_main_v61_apply, Read.val_main_v60_apply, idx60_61, Ideal.subf_def, v49_at, v52_at] <;> rfl

/-- The gain times the deviation. -/
theorem v65_at (r : Fin 50000) (k : Fin 128) :
    Read.val_main_v65 (F := Ideal) x0 x1 x2 x3 x4 x5 x6 x7 x8 x9 x10 x11 (ix2 r k) = vec x11 k * (Z2 r k - colMean w50000 Z2 k) := by
  rw [Read.val_main_v65_apply, Read.val_main_v64_apply, Read.val_main_v63_apply, idx63_64, Ideal.mulf_def, v62_at] <;> rfl

/-- The reciprocal square root of the variance plus the small constant. -/
theorem v68_at (k : Fin 128) :
    Read.val_main_v68 (F := Ideal) x0 x1 x2 x3 x4 x5 x6 x7 x8 x9 x10 (ix1 k) = Ideal.rsqrt (varDev w50000 Z2 k + weps) := by
  rw [Read.val_main_v68_apply, Ideal.hostUnary_rsqrt_def, Read.val_main_v67_apply, Ideal.addf_def, Read.val_main_v66_apply, Read.val_main_cst_10_apply, Ideal.ofBits_def,
    v59_at] <;> rfl

/-- The scaled, centred value. -/
theorem v71_at (r : Fin 50000) (k : Fin 128) :
    Read.val_main_v71 (F := Ideal) x0 x1 x2 x3 x4 x5 x6 x7 x8 x9 x10 x11 (ix2 r k)
      = vec x11 k * (Z2 r k - colMean w50000 Z2 k) * Ideal.rsqrt (varDev w50000 Z2 k + weps) := by
  rw [Read.val_main_v71_apply, Read.val_main_v70_apply, Read.val_main_v69_apply, idx69_70, Ideal.mulf_def, v65_at, v68_at] <;> rfl

/-- The normalised value: the shift added. -/
theorem v74_at (r : Fin 50000) (k : Fin 128) :
    Read.val_main_v74 (F := Ideal) x0 x1 x2 x3 x4 x5 x6 x7 x8 x9 x10 x11 x12 (ix2 r k)
      = vec x11 k * (Z2 r k - colMean w50000 Z2 k) * Ideal.rsqrt (varDev w50000 Z2 k + weps) + vec x12 k := by
  rw [Read.val_main_v74_apply, Read.val_main_v73_apply, Read.val_main_v72_apply, idx72_73, Ideal.addf_def, v71_at] <;> rfl

/-- The rectifier: the maximum with the zero word. -/
theorem v75_at (r : Fin 50000) (k : Fin 128) :
    Read.val_main_v75 (F := Ideal) x0 x1 x2 x3 x4 x5 x6 x7 x8 x9 x10 x11 x12 (ix2 r k)
      = layerDev w50000 weps (vec x11) (vec x12) Z2 r k := by
  rw [Read.val_main_v75_apply, Read.val_main_call1_v0_apply, Read.val_main_call1_cst_apply, Ideal.ofBits_def,
    Ideal.ofBits_zero_f32, Ideal.maximumf_def, v74_at] <;> rfl

/-! ## The whole reference -/

/-- The reference's result at (r, q) is the two-layer network of the specification, applied to the aggregated
    features, with the variances as mean squared deviations. -/
theorem result_at (r : Fin 50000) (q : Fin 128) :
    Read.val_main_v75 (F := Ideal) x0 x1 x2 x3 x4 x5 x6 x7 x8 x9 x10 x11 x12 (ValueIdx.ix2 r q)
      = Cert.NormLayers.netDev w50000 weps (mat (Read.val_main_v15 (F := Ideal) x0 x1 x2 x3 x4)) (mat x5) (vec x6) (vec x7)
          (vec x8) (mat x9) (vec x10) (vec x11) (vec x12) r q :=
  v75_at x0 x1 x2 x3 x4 x5 x6 x7 x8 x9 x10 x11 x12 r q

/-! ## The aggregated features are real numbers -/

/-- Every entry of the aggregation stage is a real number when the features, the edge weights and the multiplier
    are: a gather only selects entries, the accumulating scatter adds finitely many products of reals to zero, and
    the multiple of the features is a product of reals. -/
theorem isR_vagg (h0 : ∀ i, IsR (x0 i)) (h3 : ∀ i, IsR (x3 i)) (h4 : ∀ i, IsR (x4 i)) (i : S50000x128.Idx) :
    IsR (Read.val_main_v15 (F := Ideal) x0 x1 x2 x3 x4 i) := by
  rw [Read.val_main_v15_apply, Read.val_main_v14_apply, Read.val_main_v13_apply, Ideal.addf_def, Ideal.mulf_def]
  refine IsR.add ?_ ((h4 _).mul (h0 _))
  unfold Read.val_main_v12
  refine isR_scatterAdd _ _ (fun j => ?_) _ _ (fun j => ?_) i
  · rw [Read.val_main_v10_apply, Read.val_main_cst_apply, Ideal.ofBits_def, Ideal.ofBits_zero_f32]
    exact IsR_zero
  · rw [Read.val_main_v9_apply, Read.val_main_v8_apply, Read.val_main_v7_apply, Ideal.mulf_def]
    unfold Read.val_main_v6
    exact (isR_gather _ x0 h0 _ _).mul (h3 _)

end Cert.ReferenceIdeal.RefStages

end
-- ==== Proof.KernelRun.lean ====
/-
  The kernel program's run with its RESULT named. @main is three pipelined regions among stretches of host operations;
  the contents of every buffer at each boundary form a chain W0 (the launch memory), W1 … W6 (after each stretch or
  region). Every weakly fair execution terminates, without a fault, in a state where every buffer the program does not
  scope holds the last boundary's contents W6: in particular the result array, and each argument array, which no
  operation writes, still holds its launch contents.
-/
import proofs.«147491_j1151051235411_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and every argument array as launched. -/
theorem run : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.KernelRun

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.BodyValues.lean ====
/-
  The three kernel bodies' arithmetic read at an index, on extended reals.

  Region 0's body turns a block of 2000 rows of the layer's input into the block's rows of the first dense layer
  (a product with the whole weight matrix plus the bias laid along the rows) and adds, to two running [1, 512] rows,
  the block's column sums of the values and of their squares. Region 1's body first normalises and rectifies its block
  of the first layer with the column statistics it is given, then does the same with the second layer's weights.
  Region 2's body normalises and rectifies its block of the second layer. Narrowing a float format changes nothing on
  exact values, a product into a zero accumulator is the plain sum of products, and a sum over the row axis is the
  finite sum over the block's rows.
-/
import proofs.«147491_j1151051235411_1_alg».proof.Proof.Gen.KernelIdeal.Skeleton
import proofs.«147491_j1151051235411_1_alg».proof.Proof.LibMatmulRows
import proofs.«147491_j1151051235411_1_alg».proof.Proof.NormLayers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValues

open Cert.KernelIdeal Cert.KernelIdeal.Gen Idealize.ShloMosaic Idealize.ShloMosaic.ValueIdx
open scoped BigOperators

/-- The positive constant added to a variance, as the programs write it. -/
abbrev weps : EReal := Ideal.ofBits .f32 0x3727C5AC#32

/-! ## A sum over the row axis -/

/-- The sum of an [a, b] block over its rows, read at column q. -/
theorem colsum_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ x 0x00000000#32 h hφ hacc (ix1 q) = ∑ p : Fin a, x (ix2 p q) := by
  refine (Ideal.multiReduction_add_single x 0x00000000#32 h hφ hacc (ix1 q)).trans ?_
  refine Finset.sum_congr rfl fun p _ => congrArg x ?_
  exact Cert.LibMatmulRows.idx2_ext _ _ rfl rfl

/-! ## The two products' dimension records -/

theorem d0_l0 (i : S2000x512.Idx) (s : dot_S2000x128_S128x512_S2000x512_1_0_0_1_n_n.contr.Idx) : (dot_S2000x128_S128x512_S2000x512_1_0_0_1_n_n.lhsIdx i s 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem d0_l1 (i : S2000x512.Idx) (s : dot_S2000x128_S128x512_S2000x512_1_0_0_1_n_n.contr.Idx) : (dot_S2000x128_S128x512_S2000x512_1_0_0_1_n_n.lhsIdx i s 1).val = (s ⟨0, by decide⟩).val :=
  dot_S2000x128_S128x512_S2000x512_1_0_0_1_n_n.lhsIdx_val_of_single rfl i s
theorem d0_r0 (i : S2000x512.Idx) (s : dot_S2000x128_S128x512_S2000x512_1_0_0_1_n_n.contr.Idx) : (dot_S2000x128_S128x512_S2000x512_1_0_0_1_n_n.rhsIdx i s 0).val = (s ⟨0, by decide⟩).val :=
  dot_S2000x128_S128x512_S2000x512_1_0_0_1_n_n.rhsIdx_val_of_single rfl i s
theorem d0_r1 (i : S2000x512.Idx) (s : dot_S2000x128_S128x512_S2000x512_1_0_0_1_n_n.contr.Idx) : (dot_S2000x128_S128x512_S2000x512_1_0_0_1_n_n.rhsIdx i s 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

theorem d1_l0 (i : S2000x128.Idx) (s : dot_S2000x512_S512x128_S2000x128_1_0_0_1_n_n.contr.Idx) : (dot_S2000x512_S512x128_S2000x128_1_0_0_1_n_n.lhsIdx i s 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem d1_l1 (i : S2000x128.Idx) (s : dot_S2000x512_S512x128_S2000x128_1_0_0_1_n_n.contr.Idx) : (dot_S2000x512_S512x128_S2000x128_1_0_0_1_n_n.lhsIdx i s 1).val = (s ⟨0, by decide⟩).val :=
  dot_S2000x512_S512x128_S2000x128_1_0_0_1_n_n.lhsIdx_val_of_single rfl i s
theorem d1_r0 (i : S2000x128.Idx) (s : dot_S2000x512_S512x128_S2000x128_1_0_0_1_n_n.contr.Idx) : (dot_S2000x512_S512x128_S2000x128_1_0_0_1_n_n.rhsIdx i s 0).val = (s ⟨0, by decide⟩).val :=
  dot_S2000x512_S512x128_S2000x128_1_0_0_1_n_n.rhsIdx_val_of_single rfl i s
theorem d1_r1 (i : S2000x128.Idx) (s : dot_S2000x512_S512x128_S2000x128_1_0_0_1_n_n.contr.Idx) : (dot_S2000x512_S512x128_S2000x128_1_0_0_1_n_n.rhsIdx i s 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-! ## Region 0: the first dense layer's block and its column sums -/

/-- Row p, column q of the first dense layer's block: ∑ₖ x(p, k) · w(k, q) + b(0, q). -/
theorem dense0_apply (x : Vec Ideal S2000x128 .f32) (w : Vec Ideal S128x512 .f32) (b : Vec Ideal S1x512 .f32)
    (p : Fin 2000) (q : Fin 512) :
    k0_pay3 (F := Ideal) x w b (ix2 p q) = (∑ k : Fin 128, x (ix2 p k) * w (ix2 k q)) + b (ix2 0 q) := by
  unfold k0_pay3
  simp only [shapeCast_self]
  rw [addf_apply, broadcastTo_1b_ab_apply]
  refine congrArg (· + b (ix2 0 q)) ?_
  exact Cert.LibMatmulRows.matmul_rows dot_S2000x128_S128x512_S2000x512_1_0_0_1_n_n rfl rfl d0_l0 d0_l1 d0_r0 d0_r1 _ _ p q

/-- The running row of column sums after the block: what it held plus the block's column sum. -/
theorem sum0_apply (x : Vec Ideal S2000x128 .f32) (w : Vec Ideal S128x512 .f32) (b : Vec Ideal S1x512 .f32)
    (acc : Vec Ideal S1x512 .f32) (u : Fin 1) (q : Fin 512) :
    k0_pay4 (F := Ideal) x w b acc (ix2 u q) = acc (ix2 u q) + ∑ p : Fin 2000, k0_pay3 (F := Ideal) x w b (ix2 p q) := by
  unfold k0_pay4
  simp only [shapeCast_self]
  rw [addf_apply, shapeCast_a_1a_apply]
  exact congrArg (acc (ix2 u q) + ·) (colsum_apply _ _ _ _ q)

/-- The running row of column sums of squares after the block. -/
theorem sumsq0_apply (x : Vec Ideal S2000x128 .f32) (w : Vec Ideal S128x512 .f32) (b : Vec Ideal S1x512 .f32)
    (acc : Vec Ideal S1x512 .f32) (u : Fin 1) (q : Fin 512) :
    k0_pay5 (F := Ideal) x w b acc (ix2 u q)
      = acc (ix2 u q) + ∑ p : Fin 2000, k0_pay3 (F := Ideal) x w b (ix2 p q) * k0_pay3 (F := Ideal) x w b (ix2 p q) := by
  unfold k0_pay5
  simp only [shapeCast_self]
  rw [addf_apply, shapeCast_a_1a_apply]
  exact congrArg (acc (ix2 u q) + ·) (colsum_apply _ _ _ _ q)

/-- The rows the first point stores before accumulating hold zero. -/
theorem zero0a_apply (i : S1x512.Idx) : k0_pay1 (F := Ideal) i = 0 := by
  unfold k0_pay1; exact Ideal.ofBits_zero_f32
theorem zero0b_apply (i : S1x512.Idx) : k0_pay2 (F := Ideal) i = 0 := by
  unfold k0_pay2; exact Ideal.ofBits_zero_f32

/-! ## Region 1: normalise and rectify the first layer's block, then the second dense layer and its column sums -/

/-- A block entry normalised with the column statistics (mean mu, variance va), gain g and shift bt, then rectified. -/
theorem normrelu_apply {b : ℕ} (x : FVec Ideal ⟨2, ![2000, b]⟩ .f32) (va g mu bt : FVec Ideal ⟨2, ![1, b]⟩ .f32)
    (hb : (⟨2, ![1, b]⟩ : Shape).Broadcasts ⟨2, ![2000, b]⟩) (p : Fin 2000) (k : Fin b) :
    maximumf (addf (mulf (mulf (broadcastTo ⟨2, ![2000, b]⟩ g hb) (subf x (broadcastTo ⟨2, ![2000, b]⟩ mu hb)))
        (broadcastTo ⟨2, ![2000, b]⟩ (rsqrt (addf va (broadcast ⟨2, ![1, b]⟩ (Scalar.ofBits (F := Ideal) .f32 0x3727C5AC#32)))) hb))
        (broadcastTo ⟨2, ![2000, b]⟩ bt hb)) (broadcast ⟨2, ![2000, b]⟩ (Scalar.ofBits (F := Ideal) .f32 0x00000000#32)) (ix2 p k)
      = max (g (ix2 0 k) * (x (ix2 p k) - mu (ix2 0 k)) * Ideal.rsqrt (va (ix2 0 k) + weps) + bt (ix2 0 k)) 0 := by
  rw [maximumf_apply, addf_apply, mulf_apply, mulf_apply, subf_apply, broadcastTo_1b_ab_apply, broadcastTo_1b_ab_apply,
    broadcastTo_1b_ab_apply, broadcastTo_1b_ab_apply, broadcast_apply]
  show max (g (ix2 0 k) * (x (ix2 p k) - mu (ix2 0 k)) * Ideal.rsqrt (va (ix2 0 k) + weps) + bt (ix2 0 k)) (Ideal.ofBits .f32 0x00000000#32) = _
  rw [Ideal.ofBits_zero_f32]

/-- Row p, column q of the second dense layer's block, from the first layer's block x and its column statistics. -/
theorem dense1_apply (x : Vec Ideal S2000x512 .f32) (va g mu bt : Vec Ideal S1x512 .f32) (w : Vec Ideal S512x128 .f32)
    (b : Vec Ideal S1x128 .f32) (p : Fin 2000) (q : Fin 128) :
    k1_pay5 (F := Ideal) x va g mu bt w b (ix2 p q)
      = (∑ k : Fin 512, max (g (ix2 0 k) * (x (ix2 p k) - mu (ix2 0 k)) * Ideal.rsqrt (va (ix2 0 k) + weps) + bt (ix2 0 k)) 0
          * w (ix2 k q)) + b (ix2 0 q) := by
  unfold k1_pay5
  simp only [shapeCast_self]
  rw [addf_apply, broadcastTo_1b_ab_apply]
  refine congrArg (· + b (ix2 0 q)) ?_
  refine (Cert.LibMatmulRows.matmul_rows dot_S2000x512_S512x128_S2000x128_1_0_0_1_n_n rfl rfl d1_l0 d1_l1 d1_r0 d1_r1 _ _ p q).trans ?_
  refine Finset.sum_congr rfl fun k _ => congrArg (· * w (ix2 k q)) ?_
  exact normrelu_apply x va g mu bt broadcasts_S1x512_S2000x512 p k

/-- The running row of the second layer's column sums after the block. -/
theorem sum1_apply (y : FVec Ideal S2000x128 .f32) (acc : Vec Ideal S1x128 .f32) (u : Fin 1) (q : Fin 128) :
    k1_pay1 (F := Ideal) y acc (ix2 u q) = acc (ix2 u q) + ∑ p : Fin 2000, y (ix2 p q) := by
  unfold k1_pay1
  simp only [shapeCast_self]
  rw [addf_apply, shapeCast_a_1a_apply]
  exact congrArg (acc (ix2 u q) + ·) (colsum_apply _ _ _ _ q)

/-- The running row of the second layer's column sums of squares after the block. -/
theorem sumsq1_apply (y : FVec Ideal S2000x128 .f32) (acc : Vec Ideal S1x128 .f32) (u : Fin 1) (q : Fin 128) :
    k1_pay2 (F := Ideal) y acc (ix2 u q) = acc (ix2 u q) + ∑ p : Fin 2000, y (ix2 p q) * y (ix2 p q) := by
  unfold k1_pay2
  simp only [shapeCast_self]
  rw [addf_apply, shapeCast_a_1a_apply]
  exact congrArg (acc (ix2 u q) + ·) (colsum_apply _ _ _ _ q)

theorem zero1a_apply (i : S1x128.Idx) : k1_pay3 (F := Ideal) i = 0 := by
  unfold k1_pay3; exact Ideal.ofBits_zero_f32
theorem zero1b_apply (i : S1x128.Idx) : k1_pay4 (F := Ideal) i = 0 := by
  unfold k1_pay4; exact Ideal.ofBits_zero_f32

/-! ## Region 2: normalise and rectify the second layer's block -/

theorem norm2_apply (x : Vec Ideal S2000x128 .f32) (va g mu bt : Vec Ideal S1x128 .f32) (p : Fin 2000) (q : Fin 128) :
    k2_pay1 (F := Ideal) x va g mu bt (ix2 p q)
      = max (g (ix2 0 q) * (x (ix2 p q) - mu (ix2 0 q)) * Ideal.rsqrt (va (ix2 0 q) + weps) + bt (ix2 0 q)) 0 := by
  unfold k2_pay1
  simp only [shapeCast_self]
  exact normrelu_apply x va g mu bt broadcasts_S1x128_S2000x128 p q

end Cert.KernelIdeal.BodyValues

end
-- ==== Proof.LibRowBlocks.lean ====
/-
  GENERAL LEMMAS: a sum over the first k rows of R, taken one block of rows at a time.

  * below R k: the rows r < k.
  * sum_below_zero: over no rows the sum is zero.
  * sum_below_add: the rows below k + B are the rows below k together with the B rows k, k + 1, …, k + B − 1, so the sum
    over them is the sum below k plus the block's sum.
  * sum_below_all: when k reaches R the rows below k are all the rows.
  Any additive commutative monoid; nothing here mentions a program.
-/
import Mathlib.Algebra.BigOperators.Group.Finset.Basic
import Mathlib.Algebra.BigOperators.Fin
import Mathlib.Tactic.Ring
import Mathlib.Tactic.Linarith

namespace Cert.LibRowBlocks

open scoped BigOperators

variable {M : Type*} [AddCommMonoid M] {R : ℕ}

/-- The rows below k. -/
def below (R k : ℕ) : Finset (Fin R) := Finset.univ.filter fun r => r.val < k

theorem mem_below {k : ℕ} {r : Fin R} : r ∈ below R k ↔ r.val < k := by
  simp [below]

theorem sum_below_zero (f : Fin R → M) : ∑ r ∈ below R 0, f r = 0 := by
  have h : below R 0 = ∅ := by
    ext r; simp [below]
  rw [h, Finset.sum_empty]

theorem sum_below_all {k : ℕ} (hk : R ≤ k) (f : Fin R → M) : ∑ r ∈ below R k, f r = ∑ r, f r := by
  have h : below R k = Finset.univ := by
    ext r; simp only [mem_below, Finset.mem_univ, iff_true]; exact lt_of_lt_of_le r.isLt hk
  rw [h]

/-- One more block of B rows. -/
theorem sum_below_add (k B : ℕ) (hk : k + B ≤ R) (f : Fin R → M) :
    ∑ r ∈ below R (k + B), f r
      = ∑ r ∈ below R k, f r + ∑ p : Fin B, f ⟨k + p.val, lt_of_lt_of_le (Nat.add_lt_add_left p.isLt k) hk⟩ := by
  rw [← Finset.sum_filter_add_sum_filter_not (below R (k + B)) (fun r => r.val < k) f]
  congr 1
  · refine Finset.sum_congr ?_ fun _ _ => rfl
    ext r
    simp only [Finset.mem_filter, mem_below]
    omega
  · symm
    refine Finset.sum_bij (fun p _ => (⟨k + p.val, lt_of_lt_of_le (Nat.add_lt_add_left p.isLt k) hk⟩ : Fin R)) ?_ ?_ ?_ ?_
    · intro p _
      simp only [Finset.mem_filter, mem_below]
      have := p.isLt
      omega
    · intro p _ p' _ h
      have h' := congrArg Fin.val h
      simp only at h'
      exact Fin.ext (by omega)
    · intro r hr
      simp only [Finset.mem_filter, mem_below] at hr
      refine ⟨⟨r.val - k, by omega⟩, Finset.mem_univ _, Fin.ext ?_⟩
      show k + (r.val - k) = r.val
      omega
    · intro p _
      rfl

end Cert.LibRowBlocks
-- ==== Proof.Region0Pieces.lean ====
/-
  Region 0's body, case by case: what its stores leave in the three outputs' staging buffers, as the body's arithmetic
  of the blocks it loads. The body has one branch, taken at the first grid point only: there it stores zero rows into
  the two running one-row outputs before anything else. In either case the first output's buffer ends at the dense
  block, and each running row at "what it held (zero at the first point) plus the block's column sum".
-/
import proofs.«147491_j1151051235411_1_alg».proof.Proof.Gen.KernelIdeal.Frame
import Idealize.ShloMosaic.Lib.Pipeline.Value
import Idealize.ShloMosaic.Lib.Tactic

set_option maxRecDepth 16384

noncomputable section

namespace Cert.KernelIdeal.Region0Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- In either case the block of the first dense layer is the one store's value. -/
theorem lin_A (c : Dev nD) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (hc : cond0_0 i) (x0 : Vec F S2000x128 .f32) (x1 : Vec F S128x512 .f32) (x2 : Vec F S1x512 .f32) :
    out0_A_3 c i arg1 harg1 arg2 harg2 arg3 harg3 arg4 harg4 arg5 harg5 arg6 harg6 hc x0 x1 x2 = k0_pay3 x0 x1 x2 := by
  unfold out0_A_3
  rw [View.read_writes_eq_canon _ _ _ (cover0_A_3 c i arg1 harg1 arg2 harg2 arg3 harg3 arg4 harg4 arg5 harg5 arg6 harg6 hc x0 x1 x2)]
  unfold kernelRun0_A
  dsimp only
  sl_unfold_words
  rw [View.canon_unit_zero hz]
  simp only [View.readAt_eq_ld, harg1.read_unread, harg2.read_unread, harg3.read_unread, View.ld_unit_zero (S := S2000x128) hz, View.ld_unit_zero (S := S128x512) hz, View.ld_unit_zero (S := S1x512) hz]

theorem lin_B (c : Dev nD) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (hc : ¬cond0_0 i) (x0 : Vec F S2000x128 .f32) (x1 : Vec F S128x512 .f32) (x2 : Vec F S1x512 .f32) (xo4 xo5 : Vec F S1x512 .f32) :
    out0_B_3 c i arg1 harg1 arg2 harg2 arg3 harg3 arg4 harg4 arg5 harg5 arg6 harg6 hc x0 x1 x2 xo4 xo5 = k0_pay3 x0 x1 x2 := by
  unfold out0_B_3
  rw [View.read_writes_eq_canon _ _ _ (cover0_B_3 c i arg1 harg1 arg2 harg2 arg3 harg3 arg4 harg4 arg5 harg5 arg6 harg6 hc x0 x1 x2 xo4 xo5)]
  unfold kernelRun0_B
  dsimp only
  rw [View.canon_unit_zero hz]
  simp only [View.readAt_eq_ld, harg1.read_unread, harg2.read_unread, harg3.read_unread, harg5.read_unread, harg6.read_unread, View.ld_unit_zero (S := S2000x128) hz, View.ld_unit_zero (S := S128x512) hz, View.ld_unit_zero (S := S1x512) hz]

/-- At the first point the running rows are reset to zero, read back, and the block's sums added. -/
theorem sum_A (c : Dev nD) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (hc : cond0_0 i) (x0 : Vec F S2000x128 .f32) (x1 : Vec F S128x512 .f32) (x2 : Vec F S1x512 .f32) :
    out0_A_4 c i arg1 harg1 arg2 harg2 arg3 harg3 arg4 harg4 arg5 harg5 arg6 harg6 hc x0 x1 x2 = k0_pay4 x0 x1 x2 (k0_pay1 (F := F)) := by
  unfold out0_A_4
  rw [View.read_writes_eq_canon _ _ _ (cover0_A_4 c i arg1 harg1 arg2 harg2 arg3 harg3 arg4 harg4 arg5 harg5 arg6 harg6 hc x0 x1 x2)]
  unfold kernelRun0_A
  dsimp only
  sl_unfold_words
  rw [View.canon_cons_unit_zero (S := S1x512) hz, View.readCov_unit_zero (S := S1x512) _ hz]
  simp only [View.readAt_eq_ld, harg1.read_unread, harg2.read_unread, harg3.read_unread, View.ld_unit_zero (S := S2000x128) hz, View.ld_unit_zero (S := S128x512) hz, View.ld_unit_zero (S := S1x512) hz]

theorem sumsq_A (c : Dev nD) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (hc : cond0_0 i) (x0 : Vec F S2000x128 .f32) (x1 : Vec F S128x512 .f32) (x2 : Vec F S1x512 .f32) :
    out0_A_5 c i arg1 harg1 arg2 harg2 arg3 harg3 arg4 harg4 arg5 harg5 arg6 harg6 hc x0 x1 x2 = k0_pay5 x0 x1 x2 (k0_pay2 (F := F)) := by
  unfold out0_A_5
  rw [View.read_writes_eq_canon _ _ _ (cover0_A_5 c i arg1 harg1 arg2 harg2 arg3 harg3 arg4 harg4 arg5 harg5 arg6 harg6 hc x0 x1 x2)]
  unfold kernelRun0_A
  dsimp only
  sl_unfold_words
  rw [View.canon_cons_unit_zero (S := S1x512) hz, View.readCov_unit_zero (S := S1x512) _ hz]
  simp only [View.readAt_eq_ld, harg1.read_unread, harg2.read_unread, harg3.read_unread, View.ld_unit_zero (S := S2000x128) hz, View.ld_unit_zero (S := S128x512) hz, View.ld_unit_zero (S := S1x512) hz]

/-- At a later point the block's sums are added to what the rows held. -/
theorem sum_B (c : Dev nD) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (hc : ¬cond0_0 i) (x0 : Vec F S2000x128 .f32) (x1 : Vec F S128x512 .f32) (x2 : Vec F S1x512 .f32) (xo4 xo5 : Vec F S1x512 .f32) :
    out0_B_4 c i arg1 harg1 arg2 harg2 arg3 harg3 arg4 harg4 arg5 harg5 arg6 harg6 hc x0 x1 x2 xo4 xo5 = k0_pay4 x0 x1 x2 xo4 := by
  unfold out0_B_4
  rw [View.read_writes_eq_canon _ _ _ (cover0_B_4 c i arg1 harg1 arg2 harg2 arg3 harg3 arg4 harg4 arg5 harg5 arg6 harg6 hc x0 x1 x2 xo4 xo5)]
  unfold kernelRun0_B
  dsimp only
  rw [View.canon_unit_zero hz]
  simp only [View.readAt_eq_ld, harg1.read_unread, harg2.read_unread, harg3.read_unread, harg5.read_unread, harg6.read_unread, View.ld_unit_zero (S := S2000x128) hz, View.ld_unit_zero (S := S128x512) hz, View.ld_unit_zero (S := S1x512) hz]

theorem sumsq_B (c : Dev nD) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (hc : ¬cond0_0 i) (x0 : Vec F S2000x128 .f32) (x1 : Vec F S128x512 .f32) (x2 : Vec F S1x512 .f32) (xo4 xo5 : Vec F S1x512 .f32) :
    out0_B_5 c i arg1 harg1 arg2 harg2 arg3 harg3 arg4 harg4 arg5 harg5 arg6 harg6 hc x0 x1 x2 xo4 xo5 = k0_pay5 x0 x1 x2 xo5 := by
  unfold out0_B_5
  rw [View.read_writes_eq_canon _ _ _ (cover0_B_5 c i arg1 harg1 arg2 harg2 arg3 harg3 arg4 harg4 arg5 harg5 arg6 harg6 hc x0 x1 x2 xo4 xo5)]
  unfold kernelRun0_B
  dsimp only
  rw [View.canon_unit_zero hz]
  simp only [View.readAt_eq_ld, harg1.read_unread, harg2.read_unread, harg3.read_unread, harg5.read_unread, harg6.read_unread, View.ld_unit_zero (S := S2000x128) hz, View.ld_unit_zero (S := S128x512) hz, View.ld_unit_zero (S := S1x512) hz]

end Cert.KernelIdeal.Region0Pieces

end
-- ==== Proof.Region0.lean ====
/-
  Region 0 at any contents V of the buffers when it is entered. With X the layer's input [50000, 128], W the first
  weight matrix and b the first bias (a one-row matrix), let L = X · W + b. After the last grid point
    * the first result array holds L (point t writes rows 2000·t … 2000·t + 1999),
    * the second holds, in its one row, the column sums of L over all 50000 rows,
    * the third the column sums of the squares of L.
  The two one-row results stay in their staging buffers from point to point: the first point resets them to zero and
  every point adds its block's column sums, so after point n they hold the sums over the rows below 2000·n + 2000;
  they are written back once, after the last point, when those rows are all the rows.
-/
import proofs.«147491_j1151051235411_1_alg».proof.Proof.Gen.KernelIdeal.Frame
import proofs.«147491_j1151051235411_1_alg».proof.Proof.BodyValues
import proofs.«147491_j1151051235411_1_alg».proof.Proof.LibRowBlocks
import proofs.«147491_j1151051235411_1_alg».proof.Proof.Region0Pieces
import Idealize.ShloMosaic.Lib.Pipeline.Value
import Idealize.ShloMosaic.Lib.Tactic

set_option maxRecDepth 16384

noncomputable section

namespace Cert.KernelIdeal.Region0

open Cert.KernelIdeal Cert.KernelIdeal.Gen Cert.KernelIdeal.BodyValues Cert.NormLayers Cert.LibRowBlocks Cert.KernelIdeal.Region0Pieces
open Idealize.ShloMosaic Idealize.ShloMosaic.TcCoe Idealize.ShloMosaic.ValueIdx Idealize.ShloMosaic.Tactic Idealize.SL.Sem
open Idealize.ShloMosaic.Pipeline (Dat)
open scoped BigOperators

/-! ## The blocks the body reads -/

variable (V : (c : Dev nD) → (b : Ref sig .tc) → Buf (Elt Ideal) ((c : Thread nD τ).loc b))

/-- The windows' block numbers at every point: the row-blocked input and the first output are at block (t, 0), the
    weights, the bias and the two one-row outputs at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row 2000·t + p of the array, for a row p of block t. -/
def rowOf (t : Fin cfg0.N) (p : Fin 2000) : Fin 50000 :=
  ⟨2000 * t.val + p.val, by have := t.isLt; have hN : cfg0.N = 25 := N_0; have := p.isLt; omega⟩

/-- The first dense layer of the arrays the region reads. -/
def L (c : Dev nD) : Fin 50000 → Fin 512 → EReal :=
  affine (mat (V c main_v15)) (mat (V c main_arg5)) (row (V c main_v16))

theorem x_blk (c : Dev nD) (t : Fin cfg0.N) (p : Fin 2000) (k : Fin 128) :
    iblk0 V c 0 t (ix2 p k) = V c main_v15 (ix2 (rowOf t p) k) := by
  obtain ⟨e0, e1, -⟩ := idx_facts t
  show V c main_v15 (((cfg0.win 0).blk t).view.emb (ix2 p k)) = V c main_v15 (ix2 (rowOf t p) k)
  refine congrArg (V c main_v15) (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

theorem w_blk (c : Dev nD) (t : Fin cfg0.N) (k : Fin 128) (q : Fin 512) :
    iblk0 V c 1 t (ix2 k q) = V c main_arg5 (ix2 k q) := by
  obtain ⟨-, -, e0, e1, -⟩ := idx_facts t
  show V c main_arg5 (((cfg0.win 1).blk t).view.emb (ix2 k q)) = V c main_arg5 (ix2 k q)
  refine congrArg (V c main_arg5) (funext fun a => Fin.ext ?_)
  match a with
  | ⟨0, _⟩ => show win0_1.index t (0 : Fin 2) * 128 + 1 * k.val = k.val; rw [e0]; omega
  | ⟨1, _⟩ => show win0_1.index t (1 : Fin 2) * 512 + 1 * q.val = q.val; rw [e1]; omega

theorem b_blk (c : Dev nD) (t : Fin cfg0.N) (q : Fin 512) : iblk0 V c 2 t (ix2 0 q) = V c main_v16 (ix2 0 q) := by
  obtain ⟨-, -, -, -, e0, e1, -⟩ := idx_facts t
  show V c main_v16 (((cfg0.win 2).blk t).view.emb (ix2 0 q)) = V c main_v16 (ix2 0 q)
  refine congrArg (V c main_v16) (funext fun a => Fin.ext ?_)
  match a with
  | ⟨0, _⟩ => show win0_2.index t (0 : Fin 2) * 1 + 1 * 0 = 0; rw [e0]
  | ⟨1, _⟩ => show win0_2.index t (1 : Fin 2) * 512 + 1 * q.val = q.val; rw [e1]; omega

/-- Row p of the dense block computed at point t is row 2000·t + p of L. -/
theorem lin_blk (c : Dev nD) (t : Fin cfg0.N) (p : Fin 2000) (q : Fin 512) :
    k0_pay3 (F := Ideal) (iblk0 V c 0 t) (iblk0 V c 1 t) (iblk0 V c 2 t) (ix2 p q) = L V c (rowOf t p) q := by
  refine (dense0_apply (iblk0 V c 0 t) (iblk0 V c 1 t) (iblk0 V c 2 t) p q).trans ?_
  rw [b_blk]
  simp only [x_blk, w_blk]
  rfl

/-! ## The outputs' staging buffers after each point -/

/-- After point t the first output's buffer holds rows 2000·t … of L. -/
theorem lin_at (c : Dev nD) (t : Fin cfg0.N) (p : Fin 2000) (q : Fin 512) :
    (outsAt0 V c t.val t.isLt).1 (ix2 p q) = L V c (rowOf t p) q := by
  by_cases h0 : t.val % 25 = 0
  · rw [outsAt0_A V c t h0]
    dsimp only
    rw [lin_A]
    exact lin_blk V c t p q
  · rw [outsAt0_B V c t h0]
    dsimp only
    rw [lin_B]
    exact lin_blk V c t p q

/-- After point n the second output's buffer holds the column sums of L over the rows below 2000·n + 2000. -/
theorem sum_at (c : Dev nD) : ∀ (n : ℕ) (h : n < cfg0.N) (u : Fin 1) (q : Fin 512),
    (outsAt0 V c n h).2.1 (ix2 u q) = ∑ r ∈ below 50000 (2000 * n + 2000), L V c r q
  | 0, h, u, q => by
    rw [outsAt0_A V c ⟨0, h⟩ rfl]
    dsimp only
    rw [sum_A]
    refine (sum0_apply (iblk0 V c 0 ⟨0, h⟩) (iblk0 V c 1 ⟨0, h⟩) (iblk0 V c 2 ⟨0, h⟩) (k0_pay1 (F := Ideal)) u q).trans ?_
    rw [zero0a_apply, show 2000 * 0 + 2000 = 0 + 2000 from rfl,
      sum_below_add 0 2000 (by norm_num) (fun r => L V c r q), sum_below_zero]
    refine congrArg (0 + ·) (Finset.sum_congr rfl fun p _ => ?_)
    exact (lin_blk V c ⟨0, h⟩ p q).trans (congrArg (fun r => L V c r q) (Fin.ext (by show 2000 * 0 + p.val = 0 + p.val; omega)))
  | n + 1, h, u, q => by
    have hN : cfg0.N = 25 := N_0
    have hB : ¬(⟨n + 1, h⟩ : Fin cfg0.N).val % 25 = 0 := by dsimp only; omega
    rw [outsAt0_B V c ⟨n + 1, h⟩ hB]
    dsimp only
    rw [sum_B]
    refine (sum0_apply (iblk0 V c 0 ⟨n + 1, h⟩) (iblk0 V c 1 ⟨n + 1, h⟩) (iblk0 V c 2 ⟨n + 1, h⟩) _ u q).trans ?_
    rw [show 2000 * (n + 1) + 2000 = (2000 * n + 2000) + 2000 from by ring,
      sum_below_add (2000 * n + 2000) 2000 (by omega) (fun r => L V c r q)]
    refine congrArg₂ (· + ·) (sum_at c n (Nat.lt_of_succ_lt h) u q) (Finset.sum_congr rfl fun p _ => ?_)
    exact (lin_blk V c ⟨n + 1, h⟩ p q).trans (congrArg (fun r => L V c r q)
      (Fin.ext (by show 2000 * (n + 1) + p.val = 2000 * n + 2000 + p.val; ring)))

/-- After point n the third output's buffer holds the column sums of the squares of L over those rows. -/
theorem sumsq_at (c : Dev nD) : ∀ (n : ℕ) (h : n < cfg0.N) (u : Fin 1) (q : Fin 512),
    (outsAt0 V c n h).2.2 (ix2 u q) = ∑ r ∈ below 50000 (2000 * n + 2000), L V c r q * L V c r q
  | 0, h, u, q => by
    rw [outsAt0_A V c ⟨0, h⟩ rfl]
    dsimp only
    rw [sumsq_A]
    refine (sumsq0_apply (iblk0 V c 0 ⟨0, h⟩) (iblk0 V c 1 ⟨0, h⟩) (iblk0 V c 2 ⟨0, h⟩) (k0_pay2 (F := Ideal)) u q).trans ?_
    rw [zero0b_apply, show 2000 * 0 + 2000 = 0 + 2000 from rfl,
      sum_below_add 0 2000 (by norm_num) (fun r => L V c r q * L V c r q), sum_below_zero]
    refine congrArg (0 + ·) (Finset.sum_congr rfl fun p _ => ?_)
    rw [lin_blk V c ⟨0, h⟩ p q]
    exact congrArg (fun r => L V c r q * L V c r q) (Fin.ext (by show 2000 * 0 + p.val = 0 + p.val; omega))
  | n + 1, h, u, q => by
    have hN : cfg0.N = 25 := N_0
    have hB : ¬(⟨n + 1, h⟩ : Fin cfg0.N).val % 25 = 0 := by dsimp only; omega
    rw [outsAt0_B V c ⟨n + 1, h⟩ hB]
    dsimp only
    rw [sumsq_B]
    refine (sumsq0_apply (iblk0 V c 0 ⟨n + 1, h⟩) (iblk0 V c 1 ⟨n + 1, h⟩) (iblk0 V c 2 ⟨n + 1, h⟩) _ u q).trans ?_
    rw [show 2000 * (n + 1) + 2000 = (2000 * n + 2000) + 2000 from by ring,
      sum_below_add (2000 * n + 2000) 2000 (by omega) (fun r => L V c r q * L V c r q)]
    refine congrArg₂ (· + ·) (sumsq_at c n (Nat.lt_of_succ_lt h) u q) (Finset.sum_congr rfl fun p _ => ?_)
    rw [lin_blk V c ⟨n + 1, h⟩ p q]
    exact congrArg (fun r => L V c r q * L V c r q)
      (Fin.ext (by show 2000 * (n + 1) + p.val = 2000 * n + 2000 + p.val; ring))

/-! ## The three result arrays after the last point -/

/-- The first result: L. -/
def Glin (c : Dev nD) : Buf (Elt Ideal) ((c : Thread nD τ).loc main_v17_0) := fun i => L V c (i 0) (i 1)
/-- The second result: the column sums of L, in one row. -/
@[irreducible] def Gsum (c : Dev nD) : Buf (Elt Ideal) ((c : Thread nD τ).loc main_v17_1) := fun i => colSum (L V c) (i 1)
/-- The third result: the column sums of the squares of L, in one row. -/
@[irreducible] def Gsq (c : Dev nD) : Buf (Elt Ideal) ((c : Thread nD τ).loc main_v17_2) := fun i => colSumSq (L V c) (i 1)

theorem Glin_apply (c : Dev nD) (r : Fin 50000) (q : Fin 512) : Glin V c (ix2 r q) = L V c r q := rfl
theorem Gsum_apply (c : Dev nD) (i : S1x512.Idx) : Gsum V c i = colSum (L V c) (i 1) := by unfold Gsum; rfl
theorem Gsq_apply (c : Dev nD) (i : S1x512.Idx) : Gsq V c i = colSumSq (L V c) (i 1) := by unfold Gsq; rfl

theorem out_emb (t : Fin cfg0.N) (p : Fin 2000) (q : Fin 512) :
    ((cfg0.win 3).blk t).view.emb (ix2 p q) = ix2 (rowOf t p) q := by
  obtain ⟨-, -, -, -, -, -, e0, e1, -⟩ := idx_facts t
  refine funext fun a => Fin.ext ?_
  match a with
  | ⟨0, _⟩ => show win0_3.index t (0 : Fin 2) * 2000 + 1 * p.val = 2000 * t.val + p.val; rw [e0]; omega
  | ⟨1, _⟩ => show win0_3.index t (1 : Fin 2) * 512 + 1 * q.val = q.val; rw [e1]; omega

theorem flushed3_eq (c : Dev nD) (t : Fin cfg0.N) :
    (dat0 V c).flushed 3 t = ((cfg0.win 3).blk t).view.read (Elt Ideal) (Glin V c) := by
  show (cfg0.win 3).cut (grid0.coords t) ((dat0 V c).after 3 t) = _
  rw [after0_3]
  funext y
  obtain ⟨p, q, rfl⟩ : ∃ (p : Fin 2000) (q : Fin 512), y = ix2 p q := ⟨y 0, y 1, eq_ix2 y⟩
  refine (lin_at V c t p q).trans ?_
  show _ = Glin V c (((cfg0.win 3).blk t).view.emb (ix2 p q))
  rw [out_emb]
  rfl

theorem mem_blk3 (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v17_0).slice (win0_3.rect t)).set ↔ _
  rw [View.set_slice_whole, Rect.mem_set_unit]
  exact Iff.rfl

theorem cover3 (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨-, -, -, -, -, -, e0, e1, -⟩ := idx_facts t
  refine ⟨t, flush0_3 t, ?_⟩
  rw [mem_blk3]
  intro a
  match a with
  | ⟨0, _⟩ =>
    show win0_3.index t (0 : Fin 2) * 2000 ≤ (i 0).val ∧ (i 0).val < win0_3.index t (0 : Fin 2) * 2000 + 2000
    rw [e0]; show (i 0).val / 2000 * 2000 ≤ (i 0).val ∧ (i 0).val < (i 0).val / 2000 * 2000 + 2000; omega
  | ⟨1, _⟩ =>
    show win0_3.index t (1 : Fin 2) * 512 ≤ (i 1).val ∧ (i 1).val < win0_3.index t (1 : Fin 2) * 512 + 512
    rw [e1]; omega

theorem final_lin (c : Dev nD) : (dat0 V c).arrAt 3 cfg0.N = Glin V c :=
  (dat0 V c).arrAt_eq_of_cover 3 (Glin V c) (fun t _ => flushed3_eq V c t) cover3

/-- The last point, the one write-back of the two one-row results. -/
def tLast : Fin cfg0.N := ⟨24, by rw [show cfg0.N = 25 from N_0]; decide⟩

theorem flushed4_eq (c : Dev nD) (t : Fin cfg0.N) (hf : (cfg0.win 4).flush t = true) :
    (dat0 V c).flushed 4 t = ((cfg0.win 4).blk t).view.read (Elt Ideal) (Gsum V c) := by
  have hN : cfg0.N = 25 := N_0
  have h24 : t.val = 24 := by have := (flush0_4 t).mp hf; have := t.isLt; omega
  obtain ⟨-, -, -, -, -, -, -, -, e0, e1, -⟩ := idx_facts t
  show (cfg0.win 4).cut (grid0.coords t) ((dat0 V c).after 4 t) = _
  rw [after0_4]
  funext y
  obtain ⟨u, q, rfl⟩ : ∃ (u : Fin 1) (q : Fin 512), y = ix2 u q := ⟨y 0, y 1, eq_ix2 y⟩
  refine (sum_at V c t.val t.isLt u q).trans ?_
  rw [h24]
  refine (sum_below_all (by norm_num) (fun r => L V c r q)).trans ?_
  have hq : q = ((cfg0.win 4).blk t).view.emb (ix2 u q) (1 : Fin 2) := Fin.ext (by
    show q.val = win0_4.index t (1 : Fin 2) * 512 + 1 * q.val
    rw [e1]; omega)
  show _ = Gsum V c (((cfg0.win 4).blk t).view.emb (ix2 u q))
  rw [Gsum_apply, ← hq]
  unfold colSum
  rfl

theorem flushed5_eq (c : Dev nD) (t : Fin cfg0.N) (hf : (cfg0.win 5).flush t = true) :
    (dat0 V c).flushed 5 t = ((cfg0.win 5).blk t).view.read (Elt Ideal) (Gsq V c) := by
  have hN : cfg0.N = 25 := N_0
  have h24 : t.val = 24 := by have := (flush0_5 t).mp hf; have := t.isLt; omega
  obtain ⟨-, -, -, -, -, -, -, -, -, -, e0, e1⟩ := idx_facts t
  show (cfg0.win 5).cut (grid0.coords t) ((dat0 V c).after 5 t) = _
  rw [after0_5]
  funext y
  obtain ⟨u, q, rfl⟩ : ∃ (u : Fin 1) (q : Fin 512), y = ix2 u q := ⟨y 0, y 1, eq_ix2 y⟩
  refine (sumsq_at V c t.val t.isLt u q).trans ?_
  rw [h24]
  refine (sum_below_all (by norm_num) (fun r => L V c r q * L V c r q)).trans ?_
  have hq : q = ((cfg0.win 5).blk t).view.emb (ix2 u q) (1 : Fin 2) := Fin.ext (by
    show q.val = win0_5.index t (1 : Fin 2) * 512 + 1 * q.val
    rw [e1]; omega)
  show _ = Gsq V c (((cfg0.win 5).blk t).view.emb (ix2 u q))
  rw [Gsq_apply, ← hq]
  unfold colSumSq
  rfl

theorem cover4 (i : S1x512.Idx) : ∃ t : Fin cfg0.N, (cfg0.win 4).flush t = true ∧ i ∈ ((cfg0.win 4).blk t).view.set := by
  have hi0 : (i 0).val < 1 := (i 0).isLt
  have hi1 : (i 1).val < 512 := (i 1).isLt
  obtain ⟨-, -, -, -, -, -, -, -, e0, e1, -⟩ := idx_facts tLast
  refine ⟨tLast, (flush0_4 tLast).mpr rfl, ?_⟩
  show i ∈ ((View.whole main_v17_1).slice (win0_4.rect tLast)).set
  rw [View.set_slice_whole, Rect.mem_set_unit]
  intro a
  match a with
  | ⟨0, _⟩ =>
    show win0_4.index tLast (0 : Fin 2) * 1 ≤ (i 0).val ∧ (i 0).val < win0_4.index tLast (0 : Fin 2) * 1 + 1
    rw [e0]; omega
  | ⟨1, _⟩ =>
    show win0_4.index tLast (1 : Fin 2) * 512 ≤ (i 1).val ∧ (i 1).val < win0_4.index tLast (1 : Fin 2) * 512 + 512
    rw [e1]; omega

theorem cover5 (i : S1x512.Idx) : ∃ t : Fin cfg0.N, (cfg0.win 5).flush t = true ∧ i ∈ ((cfg0.win 5).blk t).view.set := by
  have hi0 : (i 0).val < 1 := (i 0).isLt
  have hi1 : (i 1).val < 512 := (i 1).isLt
  obtain ⟨-, -, -, -, -, -, -, -, -, -, e0, e1⟩ := idx_facts tLast
  refine ⟨tLast, (flush0_5 tLast).mpr rfl, ?_⟩
  show i ∈ ((View.whole main_v17_2).slice (win0_5.rect tLast)).set
  rw [View.set_slice_whole, Rect.mem_set_unit]
  intro a
  match a with
  | ⟨0, _⟩ =>
    show win0_5.index tLast (0 : Fin 2) * 1 ≤ (i 0).val ∧ (i 0).val < win0_5.index tLast (0 : Fin 2) * 1 + 1
    rw [e0]; omega
  | ⟨1, _⟩ =>
    show win0_5.index tLast (1 : Fin 2) * 512 ≤ (i 1).val ∧ (i 1).val < win0_5.index tLast (1 : Fin 2) * 512 + 512
    rw [e1]; omega

theorem final_sum (c : Dev nD) : (dat0 V c).arrAt 4 cfg0.N = Gsum V c :=
  (dat0 V c).arrAt_eq_of_cover 4 (Gsum V c) (flushed4_eq V c) cover4

theorem final_sq (c : Dev nD) : (dat0 V c).arrAt 5 cfg0.N = Gsq V c :=
  (dat0 V c).arrAt_eq_of_cover 5 (Gsq V c) (flushed5_eq V c) cover5

end Cert.KernelIdeal.Region0

end
-- ==== Proof.Region1Pieces.lean ====
/-
  Region 1's body, case by case: what its stores leave in the three outputs' staging buffers, as the body's arithmetic
  of the blocks it loads. As in region 0 the one branch is taken at the first grid point only and resets the two
  running one-row outputs to zero. In either case the first output's buffer ends at the second dense layer's block
  (computed from the normalised, rectified first layer's block), and each running row at "what it held (zero at the
  first point) plus the block's column sum".
-/
import proofs.«147491_j1151051235411_1_alg».proof.Proof.Gen.KernelIdeal.Frame
import Idealize.ShloMosaic.Lib.Pipeline.Value
import Idealize.ShloMosaic.Lib.Tactic

set_option maxRecDepth 16384

noncomputable section

namespace Cert.KernelIdeal.Region1Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- In either case the block of the second dense layer is the one store's value. -/
theorem lin_A (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc : cond1_0 i) (x0 : Vec F S2000x512 .f32) (x1 x2 x3 x4 : Vec F S1x512 .f32) (x5 : Vec F S512x128 .f32) (x6 : Vec F S1x128 .f32) :
    out1_A_7 c i arg1 harg1 arg2 harg2 arg3 harg3 arg4 harg4 arg5 harg5 arg6 harg6 arg7 harg7 arg8 harg8 arg9 harg9 arg10 harg10 hc x0 x1 x2 x3 x4 x5 x6 = k1_pay5 x0 x2 x3 x1 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc x0 x1 x2 x3 x4 x5 x6)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S2000x512) hz, View.ld_unit_zero (S := S1x512) hz, View.ld_unit_zero (S := S512x128) hz, View.ld_unit_zero (S := S1x128) hz, View.ld_unit_zero (S := S2000x128) hz]

theorem lin_B (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc : ¬cond1_0 i) (x0 : Vec F S2000x512 .f32) (x1 x2 x3 x4 : Vec F S1x512 .f32) (x5 : Vec F S512x128 .f32) (x6 : Vec F S1x128 .f32) (xo8 xo9 : Vec F S1x128 .f32) :
    out1_B_7 c i arg1 harg1 arg2 harg2 arg3 harg3 arg4 harg4 arg5 harg5 arg6 harg6 arg7 harg7 arg8 harg8 arg9 harg9 arg10 harg10 hc x0 x1 x2 x3 x4 x5 x6 xo8 xo9 = k1_pay5 x0 x2 x3 x1 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc x0 x1 x2 x3 x4 x5 x6 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S2000x512) hz, View.ld_unit_zero (S := S1x512) hz, View.ld_unit_zero (S := S512x128) hz, View.ld_unit_zero (S := S1x128) hz, View.ld_unit_zero (S := S2000x128) hz]

/-- At the first point the running rows are reset to zero, read back, and the block's sums added. -/
theorem sum_A (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc : cond1_0 i) (x0 : Vec F S2000x512 .f32) (x1 x2 x3 x4 : Vec F S1x512 .f32) (x5 : Vec F S512x128 .f32) (x6 : Vec F S1x128 .f32) :
    out1_A_8 c i arg1 harg1 arg2 harg2 arg3 harg3 arg4 harg4 arg5 harg5 arg6 harg6 arg7 harg7 arg8 harg8 arg9 harg9 arg10 harg10 hc x0 x1 x2 x3 x4 x5 x6 = k1_pay1 (k1_pay5 x0 x2 x3 x1 x4 x5 x6) (k1_pay3 (F := F)) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S2000x512) hz, View.ld_unit_zero (S := S1x512) hz, View.ld_unit_zero (S := S512x128) hz, View.ld_unit_zero (S := S1x128) hz, View.ld_unit_zero (S := S2000x128) hz]

theorem sumsq_A (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc : cond1_0 i) (x0 : Vec F S2000x512 .f32) (x1 x2 x3 x4 : Vec F S1x512 .f32) (x5 : Vec F S512x128 .f32) (x6 : Vec F S1x128 .f32) :
    out1_A_9 c i arg1 harg1 arg2 harg2 arg3 harg3 arg4 harg4 arg5 harg5 arg6 harg6 arg7 harg7 arg8 harg8 arg9 harg9 arg10 harg10 hc x0 x1 x2 x3 x4 x5 x6 = k1_pay2 (k1_pay5 x0 x2 x3 x1 x4 x5 x6) (k1_pay4 (F := F)) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S2000x512) hz, View.ld_unit_zero (S := S1x512) hz, View.ld_unit_zero (S := S512x128) hz, View.ld_unit_zero (S := S1x128) hz, View.ld_unit_zero (S := S2000x128) hz]

/-- At a later point the block's sums are added to what the rows held. -/
theorem sum_B (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc : ¬cond1_0 i) (x0 : Vec F S2000x512 .f32) (x1 x2 x3 x4 : Vec F S1x512 .f32) (x5 : Vec F S512x128 .f32) (x6 : Vec F S1x128 .f32) (xo8 xo9 : Vec F S1x128 .f32) :
    out1_B_8 c i arg1 harg1 arg2 harg2 arg3 harg3 arg4 harg4 arg5 harg5 arg6 harg6 arg7 harg7 arg8 harg8 arg9 harg9 arg10 harg10 hc x0 x1 x2 x3 x4 x5 x6 xo8 xo9 = k1_pay1 (k1_pay5 x0 x2 x3 x1 x4 x5 x6) xo8 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc x0 x1 x2 x3 x4 x5 x6 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S2000x512) hz, View.ld_unit_zero (S := S1x512) hz, View.ld_unit_zero (S := S512x128) hz, View.ld_unit_zero (S := S1x128) hz, View.ld_unit_zero (S := S2000x128) hz]

theorem sumsq_B (c : Dev nD) (i : grid1.Coords) (arg1 : Memref sig .tc .vmem S2000x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc : ¬cond1_0 i) (x0 : Vec F S2000x512 .f32) (x1 x2 x3 x4 : Vec F S1x512 .f32) (x5 : Vec F S512x128 .f32) (x6 : Vec F S1x128 .f32) (xo8 xo9 : Vec F S1x128 .f32) :
    out1_B_9 c i arg1 harg1 arg2 harg2 arg3 harg3 arg4 harg4 arg5 harg5 arg6 harg6 arg7 harg7 arg8 harg8 arg9 harg9 arg10 harg10 hc x0 x1 x2 x3 x4 x5 x6 xo8 xo9 = k1_pay2 (k1_pay5 x0 x2 x3 x1 x4 x5 x6) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc x0 x1 x2 x3 x4 x5 x6 xo8 xo9)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S2000x512) hz, View.ld_unit_zero (S := S1x512) hz, View.ld_unit_zero (S := S512x128) hz, View.ld_unit_zero (S := S1x128) hz, View.ld_unit_zero (S := S2000x128) hz]

end Cert.KernelIdeal.Region1Pieces

end
-- ==== Proof.Region1.lean ====
/-
  Region 1 at any contents V of the buffers when it is entered. With x the first dense layer [50000, 512], μ and σ² its
  column statistics, g and β the first gain and shift (one-row matrices), let H be x normalised and rectified, W the
  second weight matrix, b the second bias, and L = H · W + b. After the last grid point
    * the first result array holds L (point t writes rows 2000·t … 2000·t + 1999),
    * the second holds, in its one row, the column sums of L over all 50000 rows,
    * the third the column sums of the squares of L.
  The running rows are reset at the first point, grow by one block's column sums per point, and are written back once.
-/
import proofs.«147491_j1151051235411_1_alg».proof.Proof.Gen.KernelIdeal.Frame
import proofs.«147491_j1151051235411_1_alg».proof.Proof.BodyValues
import proofs.«147491_j1151051235411_1_alg».proof.Proof.LibRowBlocks
import proofs.«147491_j1151051235411_1_alg».proof.Proof.Region1Pieces
import Idealize.ShloMosaic.Lib.Pipeline.Value
import Idealize.ShloMosaic.Lib.Tactic

set_option maxRecDepth 16384

noncomputable section

namespace Cert.KernelIdeal.Region1

open Cert.KernelIdeal Cert.KernelIdeal.Gen Cert.KernelIdeal.BodyValues Cert.NormLayers Cert.LibRowBlocks Cert.KernelIdeal.Region1Pieces
open Idealize.ShloMosaic Idealize.ShloMosaic.TcCoe Idealize.ShloMosaic.ValueIdx Idealize.ShloMosaic.Tactic Idealize.SL.Sem
open Idealize.ShloMosaic.Pipeline (Dat)
open scoped BigOperators

/-! ## The blocks the body reads -/

variable (V : (c : Dev nD) → (b : Ref sig .tc) → Buf (Elt Ideal) ((c : Thread nD τ).loc b))

/-- The windows' block numbers at every point: the row-blocked input and the first output are at block (t, 0), every
    other window at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Row 2000·t + p of the array, for a row p of block t. -/
def rowOf (t : Fin cfg1.N) (p : Fin 2000) : Fin 50000 :=
  ⟨2000 * t.val + p.val, by have := t.isLt; have hN : cfg1.N = 25 := N_1; have := p.isLt; omega⟩

/-- The first layer, normalised with the statistics the region is given and rectified. -/
def H (c : Dev nD) : Fin 50000 → Fin 512 → EReal :=
  normRelu weps (row (V c main_v24)) (row (V c main_v25)) (row (V c main_v19)) (row (V c main_v23)) (mat (V c main_v17_0))

/-- The second dense layer of it. -/
def L (c : Dev nD) : Fin 50000 → Fin 128 → EReal :=
  affine (H V c) (mat (V c main_arg9)) (row (V c main_v26))

theorem x_blk (c : Dev nD) (t : Fin cfg1.N) (p : Fin 2000) (k : Fin 512) :
    iblk1 V c 0 t (ix2 p k) = V c main_v17_0 (ix2 (rowOf t p) k) := by
  obtain ⟨e0, e1, -⟩ := idx_facts t
  show V c main_v17_0 (((cfg1.win 0).blk t).view.emb (ix2 p k)) = V c main_v17_0 (ix2 (rowOf t p) k)
  refine congrArg (V c main_v17_0) (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 512 + 1 * k.val = k.val; rw [e1]; omega

theorem mu_blk (c : Dev nD) (t : Fin cfg1.N) (k : Fin 512) : iblk1 V c 1 t (ix2 0 k) = V c main_v19 (ix2 0 k) := by
  obtain ⟨-, -, e0, e1, -⟩ := idx_facts t
  show V c main_v19 (((cfg1.win 1).blk t).view.emb (ix2 0 k)) = V c main_v19 (ix2 0 k)
  refine congrArg (V c main_v19) (funext fun a => Fin.ext ?_)
  match a with
  | ⟨0, _⟩ => show win1_1.index t (0 : Fin 2) * 1 + 1 * 0 = 0; rw [e0]
  | ⟨1, _⟩ => show win1_1.index t (1 : Fin 2) * 512 + 1 * k.val = k.val; rw [e1]; omega

theorem va_blk (c : Dev nD) (t : Fin cfg1.N) (k : Fin 512) : iblk1 V c 2 t (ix2 0 k) = V c main_v23 (ix2 0 k) := by
  obtain ⟨-, -, -, -, e0, e1, -⟩ := idx_facts t
  show V c main_v23 (((cfg1.win 2).blk t).view.emb (ix2 0 k)) = V c main_v23 (ix2 0 k)
  refine congrArg (V c main_v23) (funext fun a => Fin.ext ?_)
  match a with
  | ⟨0, _⟩ => show win1_2.index t (0 : Fin 2) * 1 + 1 * 0 = 0; rw [e0]
  | ⟨1, _⟩ => show win1_2.index t (1 : Fin 2) * 512 + 1 * k.val = k.val; rw [e1]; omega

theorem g_blk (c : Dev nD) (t : Fin cfg1.N) (k : Fin 512) : iblk1 V c 3 t (ix2 0 k) = V c main_v24 (ix2 0 k) := by
  obtain ⟨-, -, -, -, -, -, e0, e1, -⟩ := idx_facts t
  show V c main_v24 (((cfg1.win 3).blk t).view.emb (ix2 0 k)) = V c main_v24 (ix2 0 k)
  refine congrArg (V c main_v24) (funext fun a => Fin.ext ?_)
  match a with
  | ⟨0, _⟩ => show win1_3.index t (0 : Fin 2) * 1 + 1 * 0 = 0; rw [e0]
  | ⟨1, _⟩ => show win1_3.index t (1 : Fin 2) * 512 + 1 * k.val = k.val; rw [e1]; omega

theorem bt_blk (c : Dev nD) (t : Fin cfg1.N) (k : Fin 512) : iblk1 V c 4 t (ix2 0 k) = V c main_v25 (ix2 0 k) := by
  obtain ⟨-, -, -, -, -, -, -, -, e0, e1, -⟩ := idx_facts t
  show V c main_v25 (((cfg1.win 4).blk t).view.emb (ix2 0 k)) = V c main_v25 (ix2 0 k)
  refine congrArg (V c main_v25) (funext fun a => Fin.ext ?_)
  match a with
  | ⟨0, _⟩ => show win1_4.index t (0 : Fin 2) * 1 + 1 * 0 = 0; rw [e0]
  | ⟨1, _⟩ => show win1_4.index t (1 : Fin 2) * 512 + 1 * k.val = k.val; rw [e1]; omega

theorem w_blk (c : Dev nD) (t : Fin cfg1.N) (k : Fin 512) (q : Fin 128) :
    iblk1 V c 5 t (ix2 k q) = V c main_arg9 (ix2 k q) := by
  obtain ⟨-, -, -, -, -, -, -, -, -, -, e0, e1, -⟩ := idx_facts t
  show V c main_arg9 (((cfg1.win 5).blk t).view.emb (ix2 k q)) = V c main_arg9 (ix2 k q)
  refine congrArg (V c main_arg9) (funext fun a => Fin.ext ?_)
  match a with
  | ⟨0, _⟩ => show win1_5.index t (0 : Fin 2) * 512 + 1 * k.val = k.val; rw [e0]; omega
  | ⟨1, _⟩ => show win1_5.index t (1 : Fin 2) * 128 + 1 * q.val = q.val; rw [e1]; omega

theorem b_blk (c : Dev nD) (t : Fin cfg1.N) (k : Fin 128) : iblk1 V c 6 t (ix2 0 k) = V c main_v26 (ix2 0 k) := by
  obtain ⟨-, -, -, -, -, -, -, -, -, -, -, -, e0, e1, -⟩ := idx_facts t
  show V c main_v26 (((cfg1.win 6).blk t).view.emb (ix2 0 k)) = V c main_v26 (ix2 0 k)
  refine congrArg (V c main_v26) (funext fun a => Fin.ext ?_)
  match a with
  | ⟨0, _⟩ => show win1_6.index t (0 : Fin 2) * 1 + 1 * 0 = 0; rw [e0]
  | ⟨1, _⟩ => show win1_6.index t (1 : Fin 2) * 128 + 1 * k.val = k.val; rw [e1]; omega

/-- Row p of the dense block computed at point t is row 2000·t + p of L. -/
theorem lin_blk (c : Dev nD) (t : Fin cfg1.N) (p : Fin 2000) (q : Fin 128) :
    k1_pay5 (F := Ideal) (iblk1 V c 0 t) (iblk1 V c 2 t) (iblk1 V c 3 t) (iblk1 V c 1 t) (iblk1 V c 4 t) (iblk1 V c 5 t)
      (iblk1 V c 6 t) (ix2 p q) = L V c (rowOf t p) q := by
  refine (dense1_apply (iblk1 V c 0 t) (iblk1 V c 2 t) (iblk1 V c 3 t) (iblk1 V c 1 t) (iblk1 V c 4 t) (iblk1 V c 5 t)
    (iblk1 V c 6 t) p q).trans ?_
  rw [b_blk]
  simp only [x_blk, mu_blk, va_blk, g_blk, bt_blk, w_blk]
  unfold L affine H normRelu row mat
  rfl

/-! ## The outputs' staging buffers after each point -/

/-- After point t the first output's buffer holds rows 2000·t … of L. -/
theorem lin_at (c : Dev nD) (t : Fin cfg1.N) (p : Fin 2000) (q : Fin 128) :
    (outsAt1 V c t.val t.isLt).1 (ix2 p q) = L V c (rowOf t p) q := by
  by_cases h0 : t.val % 25 = 0
  · rw [outsAt1_A V c t h0]
    dsimp only
    rw [lin_A]
    exact lin_blk V c t p q
  · rw [outsAt1_B V c t h0]
    dsimp only
    rw [lin_B]
    exact lin_blk V c t p q

/-- The dense block at a point, as the body computes it. -/
abbrev yAt (c : Dev nD) (t : Fin cfg1.N) : FVec Ideal S2000x128 .f32 :=
  k1_pay5 (F := Ideal) (iblk1 V c 0 t) (iblk1 V c 2 t) (iblk1 V c 3 t) (iblk1 V c 1 t) (iblk1 V c 4 t) (iblk1 V c 5 t) (iblk1 V c 6 t)

/-- After point n the second output's buffer holds the column sums of L over the rows below 2000·n + 2000. -/
theorem sum_at (c : Dev nD) : ∀ (n : ℕ) (h : n < cfg1.N) (u : Fin 1) (q : Fin 128),
    (outsAt1 V c n h).2.1 (ix2 u q) = ∑ r ∈ below 50000 (2000 * n + 2000), L V c r q
  | 0, h, u, q => by
    rw [outsAt1_A V c ⟨0, h⟩ rfl]
    dsimp only
    rw [sum_A]
    refine (sum1_apply (yAt V c ⟨0, h⟩) (k1_pay3 (F := Ideal)) u q).trans ?_
    rw [zero1a_apply, show 2000 * 0 + 2000 = 0 + 2000 from rfl,
      sum_below_add 0 2000 (by norm_num) (fun r => L V c r q), sum_below_zero]
    refine congrArg (0 + ·) (Finset.sum_congr rfl fun p _ => ?_)
    exact (lin_blk V c ⟨0, h⟩ p q).trans (congrArg (fun r => L V c r q) (Fin.ext (by show 2000 * 0 + p.val = 0 + p.val; omega)))
  | n + 1, h, u, q => by
    have hN : cfg1.N = 25 := N_1
    have hB : ¬(⟨n + 1, h⟩ : Fin cfg1.N).val % 25 = 0 := by dsimp only; omega
    rw [outsAt1_B V c ⟨n + 1, h⟩ hB]
    dsimp only
    rw [sum_B]
    refine (sum1_apply (yAt V c ⟨n + 1, h⟩) _ u q).trans ?_
    rw [show 2000 * (n + 1) + 2000 = (2000 * n + 2000) + 2000 from by ring,
      sum_below_add (2000 * n + 2000) 2000 (by omega) (fun r => L V c r q)]
    refine congrArg₂ (· + ·) (sum_at c n (Nat.lt_of_succ_lt h) u q) (Finset.sum_congr rfl fun p _ => ?_)
    exact (lin_blk V c ⟨n + 1, h⟩ p q).trans (congrArg (fun r => L V c r q)
      (Fin.ext (by show 2000 * (n + 1) + p.val = 2000 * n + 2000 + p.val; ring)))

/-- After point n the third output's buffer holds the column sums of the squares of L over those rows. -/
theorem sumsq_at (c : Dev nD) : ∀ (n : ℕ) (h : n < cfg1.N) (u : Fin 1) (q : Fin 128),
    (outsAt1 V c n h).2.2 (ix2 u q) = ∑ r ∈ below 50000 (2000 * n + 2000), L V c r q * L V c r q
  | 0, h, u, q => by
    rw [outsAt1_A V c ⟨0, h⟩ rfl]
    dsimp only
    rw [sumsq_A]
    refine (sumsq1_apply (yAt V c ⟨0, h⟩) (k1_pay4 (F := Ideal)) u q).trans ?_
    rw [zero1b_apply, show 2000 * 0 + 2000 = 0 + 2000 from rfl,
      sum_below_add 0 2000 (by norm_num) (fun r => L V c r q * L V c r q), sum_below_zero]
    refine congrArg (0 + ·) (Finset.sum_congr rfl fun p _ => ?_)
    rw [show yAt V c ⟨0, h⟩ (ix2 p q) = L V c (rowOf ⟨0, h⟩ p) q from lin_blk V c ⟨0, h⟩ p q]
    exact congrArg (fun r => L V c r q * L V c r q) (Fin.ext (by show 2000 * 0 + p.val = 0 + p.val; omega))
  | n + 1, h, u, q => by
    have hN : cfg1.N = 25 := N_1
    have hB : ¬(⟨n + 1, h⟩ : Fin cfg1.N).val % 25 = 0 := by dsimp only; omega
    rw [outsAt1_B V c ⟨n + 1, h⟩ hB]
    dsimp only
    rw [sumsq_B]
    refine (sumsq1_apply (yAt V c ⟨n + 1, h⟩) _ u q).trans ?_
    rw [show 2000 * (n + 1) + 2000 = (2000 * n + 2000) + 2000 from by ring,
      sum_below_add (2000 * n + 2000) 2000 (by omega) (fun r => L V c r q * L V c r q)]
    refine congrArg₂ (· + ·) (sumsq_at c n (Nat.lt_of_succ_lt h) u q) (Finset.sum_congr rfl fun p _ => ?_)
    rw [show yAt V c ⟨n + 1, h⟩ (ix2 p q) = L V c (rowOf ⟨n + 1, h⟩ p) q from lin_blk V c ⟨n + 1, h⟩ p q]
    exact congrArg (fun r => L V c r q * L V c r q)
      (Fin.ext (by show 2000 * (n + 1) + p.val = 2000 * n + 2000 + p.val; ring))

/-! ## The three result arrays after the last point -/

/-- The first result: L. -/
def Glin (c : Dev nD) : Buf (Elt Ideal) ((c : Thread nD τ).loc main_v27_0) := fun i => L V c (i 0) (i 1)
/-- The second result: the column sums of L, in one row. -/
@[irreducible] def Gsum (c : Dev nD) : Buf (Elt Ideal) ((c : Thread nD τ).loc main_v27_1) := fun i => colSum (L V c) (i 1)
/-- The third result: the column sums of the squares of L, in one row. -/
@[irreducible] def Gsq (c : Dev nD) : Buf (Elt Ideal) ((c : Thread nD τ).loc main_v27_2) := fun i => colSumSq (L V c) (i 1)

theorem Glin_apply (c : Dev nD) (r : Fin 50000) (q : Fin 128) : Glin V c (ix2 r q) = L V c r q := rfl
theorem Gsum_apply (c : Dev nD) (i : S1x128.Idx) : Gsum V c i = colSum (L V c) (i 1) := by unfold Gsum; rfl
theorem Gsq_apply (c : Dev nD) (i : S1x128.Idx) : Gsq V c i = colSumSq (L V c) (i 1) := by unfold Gsq; rfl

theorem out_emb (t : Fin cfg1.N) (p : Fin 2000) (q : Fin 128) :
    ((cfg1.win 7).blk t).view.emb (ix2 p q) = ix2 (rowOf t p) q := by
  obtain ⟨-, -, -, -, -, -, -, -, -, -, -, -, -, -, e0, e1, -⟩ := idx_facts t
  refine funext fun a => Fin.ext ?_
  match a with
  | ⟨0, _⟩ => show win1_7.index t (0 : Fin 2) * 2000 + 1 * p.val = 2000 * t.val + p.val; rw [e0]; omega
  | ⟨1, _⟩ => show win1_7.index t (1 : Fin 2) * 128 + 1 * q.val = q.val; rw [e1]; omega

theorem flushed7_eq (c : Dev nD) (t : Fin cfg1.N) :
    (dat1 V c).flushed 7 t = ((cfg1.win 7).blk t).view.read (Elt Ideal) (Glin V c) := by
  show (cfg1.win 7).cut (grid1.coords t) ((dat1 V c).after 7 t) = _
  rw [after1_7]
  funext y
  obtain ⟨p, q, rfl⟩ : ∃ (p : Fin 2000) (q : Fin 128), y = ix2 p q := ⟨y 0, y 1, eq_ix2 y⟩
  refine (lin_at V c t p q).trans ?_
  show _ = Glin V c (((cfg1.win 7).blk t).view.emb (ix2 p q))
  rw [out_emb]
  rfl

theorem mem_blk7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v27_0).slice (win1_7.rect t)).set ↔ _
  rw [View.set_slice_whole, Rect.mem_set_unit]
  exact Iff.rfl

theorem cover7 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, -, -, -, -, e0, e1, -⟩ := idx_facts t
  refine ⟨t, flush1_7 t, ?_⟩
  rw [mem_blk7]
  intro a
  match a with
  | ⟨0, _⟩ =>
    show win1_7.index t (0 : Fin 2) * 2000 ≤ (i 0).val ∧ (i 0).val < win1_7.index t (0 : Fin 2) * 2000 + 2000
    rw [e0]; show (i 0).val / 2000 * 2000 ≤ (i 0).val ∧ (i 0).val < (i 0).val / 2000 * 2000 + 2000; omega
  | ⟨1, _⟩ =>
    show win1_7.index t (1 : Fin 2) * 128 ≤ (i 1).val ∧ (i 1).val < win1_7.index t (1 : Fin 2) * 128 + 128
    rw [e1]; omega

theorem final_lin (c : Dev nD) : (dat1 V c).arrAt 7 cfg1.N = Glin V c :=
  (dat1 V c).arrAt_eq_of_cover 7 (Glin V c) (fun t _ => flushed7_eq V c t) cover7

/-- The last point, the one write-back of the two one-row results. -/
def tLast : Fin cfg1.N := ⟨24, by rw [show cfg1.N = 25 from N_1]; decide⟩

theorem flushed8_eq (c : Dev nD) (t : Fin cfg1.N) (hf : (cfg1.win 8).flush t = true) :
    (dat1 V c).flushed 8 t = ((cfg1.win 8).blk t).view.read (Elt Ideal) (Gsum V c) := by
  have hN : cfg1.N = 25 := N_1
  have h24 : t.val = 24 := by have := (flush1_8 t).mp hf; have := t.isLt; omega
  obtain ⟨-, -, -, -, -, -, -, -, -, -, -, -, -, -, -, -, e0, e1, -⟩ := idx_facts t
  show (cfg1.win 8).cut (grid1.coords t) ((dat1 V c).after 8 t) = _
  rw [after1_8]
  funext y
  obtain ⟨u, q, rfl⟩ : ∃ (u : Fin 1) (q : Fin 128), y = ix2 u q := ⟨y 0, y 1, eq_ix2 y⟩
  refine (sum_at V c t.val t.isLt u q).trans ?_
  rw [h24]
  refine (sum_below_all (by norm_num) (fun r => L V c r q)).trans ?_
  have hq : q = ((cfg1.win 8).blk t).view.emb (ix2 u q) (1 : Fin 2) := Fin.ext (by
    show q.val = win1_8.index t (1 : Fin 2) * 128 + 1 * q.val
    rw [e1]; omega)
  show _ = Gsum V c (((cfg1.win 8).blk t).view.emb (ix2 u q))
  rw [Gsum_apply, ← hq]
  unfold colSum
  rfl

theorem cover8 (i : S1x128.Idx) : ∃ t : Fin cfg1.N, (cfg1.win 8).flush t = true ∧ i ∈ ((cfg1.win 8).blk t).view.set := by
  have hi0 : (i 0).val < 1 := (i 0).isLt
  have hi1 : (i 1).val < 128 := (i 1).isLt
  obtain ⟨-, -, -, -, -, -, -, -, -, -, -, -, -, -, -, -, e0, e1, -⟩ := idx_facts tLast
  refine ⟨tLast, (flush1_8 tLast).mpr rfl, ?_⟩
  show i ∈ ((View.whole main_v27_1).slice (win1_8.rect tLast)).set
  rw [View.set_slice_whole, Rect.mem_set_unit]
  intro a
  match a with
  | ⟨0, _⟩ =>
    show win1_8.index tLast (0 : Fin 2) * 1 ≤ (i 0).val ∧ (i 0).val < win1_8.index tLast (0 : Fin 2) * 1 + 1
    rw [e0]; omega
  | ⟨1, _⟩ =>
    show win1_8.index tLast (1 : Fin 2) * 128 ≤ (i 1).val ∧ (i 1).val < win1_8.index tLast (1 : Fin 2) * 128 + 128
    rw [e1]; omega

theorem flushed9_eq (c : Dev nD) (t : Fin cfg1.N) (hf : (cfg1.win 9).flush t = true) :
    (dat1 V c).flushed 9 t = ((cfg1.win 9).blk t).view.read (Elt Ideal) (Gsq V c) := by
  have hN : cfg1.N = 25 := N_1
  have h24 : t.val = 24 := by have := (flush1_9 t).mp hf; have := t.isLt; omega
  obtain ⟨-, -, -, -, -, -, -, -, -, -, -, -, -, -, -, -, -, -, e0, e1⟩ := idx_facts t
  show (cfg1.win 9).cut (grid1.coords t) ((dat1 V c).after 9 t) = _
  rw [after1_9]
  funext y
  obtain ⟨u, q, rfl⟩ : ∃ (u : Fin 1) (q : Fin 128), y = ix2 u q := ⟨y 0, y 1, eq_ix2 y⟩
  refine (sumsq_at V c t.val t.isLt u q).trans ?_
  rw [h24]
  refine (sum_below_all (by norm_num) (fun r => L V c r q * L V c r q)).trans ?_
  have hq : q = ((cfg1.win 9).blk t).view.emb (ix2 u q) (1 : Fin 2) := Fin.ext (by
    show q.val = win1_9.index t (1 : Fin 2) * 128 + 1 * q.val
    rw [e1]; omega)
  show _ = Gsq V c (((cfg1.win 9).blk t).view.emb (ix2 u q))
  rw [Gsq_apply, ← hq]
  unfold colSumSq
  rfl

theorem cover9 (i : S1x128.Idx) : ∃ t : Fin cfg1.N, (cfg1.win 9).flush t = true ∧ i ∈ ((cfg1.win 9).blk t).view.set := by
  have hi0 : (i 0).val < 1 := (i 0).isLt
  have hi1 : (i 1).val < 128 := (i 1).isLt
  obtain ⟨-, -, -, -, -, -, -, -, -, -, -, -, -, -, -, -, -, -, e0, e1⟩ := idx_facts tLast
  refine ⟨tLast, (flush1_9 tLast).mpr rfl, ?_⟩
  show i ∈ ((View.whole main_v27_2).slice (win1_9.rect tLast)).set
  rw [View.set_slice_whole, Rect.mem_set_unit]
  intro a
  match a with
  | ⟨0, _⟩ =>
    show win1_9.index tLast (0 : Fin 2) * 1 ≤ (i 0).val ∧ (i 0).val < win1_9.index tLast (0 : Fin 2) * 1 + 1
    rw [e0]; omega
  | ⟨1, _⟩ =>
    show win1_9.index tLast (1 : Fin 2) * 128 ≤ (i 1).val ∧ (i 1).val < win1_9.index tLast (1 : Fin 2) * 128 + 128
    rw [e1]; omega

theorem final_sum (c : Dev nD) : (dat1 V c).arrAt 8 cfg1.N = Gsum V c :=
  (dat1 V c).arrAt_eq_of_cover 8 (Gsum V c) (flushed8_eq V c) cover8

theorem final_sq (c : Dev nD) : (dat1 V c).arrAt 9 cfg1.N = Gsq V c :=
  (dat1 V c).arrAt_eq_of_cover 9 (Gsq V c) (flushed9_eq V c) cover9

end Cert.KernelIdeal.Region1

end
-- ==== Proof.Region2.lean ====
/-
  Region 2 at any contents V of the buffers when it is entered: its result array, after the last grid point, is the
  second layer normalised and rectified — entry (r, q) is max(g(q) · (x(r, q) − μ(q)) · (σ²(q) + ε)^(-1/2) + β(q), 0) of the
  arrays the region reads (x in blocks of 2000 rows, the four one-row statistics and parameters whole at every point).
  Point t writes rows 2000·t … 2000·t + 1999, and the 25 points' blocks tile the 50000 rows.
-/
import proofs.«147491_j1151051235411_1_alg».proof.Proof.Gen.KernelIdeal.Frame
import proofs.«147491_j1151051235411_1_alg».proof.Proof.BodyValues
import Idealize.ShloMosaic.Lib.Pipeline.Value

set_option maxRecDepth 16384

noncomputable section

namespace Cert.KernelIdeal.Region2

open Cert.KernelIdeal Cert.KernelIdeal.Gen Cert.KernelIdeal.BodyValues Cert.NormLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block numbers at every point: the row-blocked input and output are at block (t, 0), the four one-row
    inputs at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row 2000·t + p of the array, for a row p of block t. -/
def rowOf (t : Fin cfg2.N) (p : Fin 2000) : Fin 50000 :=
  ⟨2000 * t.val + p.val, by have := t.isLt; have hN : cfg2.N = 25 := N_2; have := p.isLt; omega⟩

/-- The result array as one function of the arrays the region reads. -/
def G (c : Dev nD) : Buf (Elt Ideal) ((c : Thread nD τ).loc main_v36) := fun i =>
  normRelu weps (row (V c main_v34)) (row (V c main_v35)) (row (V c main_v29)) (row (V c main_v33)) (mat (V c main_v27_0)) (i 0) (i 1)

theorem x_blk (c : Dev nD) (t : Fin cfg2.N) (p : Fin 2000) (q : Fin 128) :
    iblk2 V c 0 t (ix2 p q) = V c main_v27_0 (ix2 (rowOf t p) q) := by
  obtain ⟨e0, e1, -⟩ := idx_facts t
  show V c main_v27_0 (((cfg2.win 0).blk t).view.emb (ix2 p q)) = V c main_v27_0 (ix2 (rowOf t p) q)
  refine congrArg (V c main_v27_0) (funext fun a => Fin.ext ?_)
  match a with
  | ⟨0, _⟩ => show win2_0.index t (0 : Fin 2) * 2000 + 1 * p.val = 2000 * t.val + p.val; rw [e0]; omega
  | ⟨1, _⟩ => show win2_0.index t (1 : Fin 2) * 128 + 1 * q.val = q.val; rw [e1]; omega

theorem mu_blk (c : Dev nD) (t : Fin cfg2.N) (q : Fin 128) : iblk2 V c 1 t (ix2 0 q) = V c main_v29 (ix2 0 q) := by
  obtain ⟨-, -, e0, e1, -⟩ := idx_facts t
  show V c main_v29 (((cfg2.win 1).blk t).view.emb (ix2 0 q)) = V c main_v29 (ix2 0 q)
  refine congrArg (V c main_v29) (funext fun a => Fin.ext ?_)
  match a with
  | ⟨0, _⟩ => show win2_1.index t (0 : Fin 2) * 1 + 1 * 0 = 0; rw [e0]
  | ⟨1, _⟩ => show win2_1.index t (1 : Fin 2) * 128 + 1 * q.val = q.val; rw [e1]; omega

theorem va_blk (c : Dev nD) (t : Fin cfg2.N) (q : Fin 128) : iblk2 V c 2 t (ix2 0 q) = V c main_v33 (ix2 0 q) := by
  obtain ⟨-, -, -, -, e0, e1, -⟩ := idx_facts t
  show V c main_v33 (((cfg2.win 2).blk t).view.emb (ix2 0 q)) = V c main_v33 (ix2 0 q)
  refine congrArg (V c main_v33) (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

theorem g_blk (c : Dev nD) (t : Fin cfg2.N) (q : Fin 128) : iblk2 V c 3 t (ix2 0 q) = V c main_v34 (ix2 0 q) := by
  obtain ⟨-, -, -, -, -, -, e0, e1, -⟩ := idx_facts t
  show V c main_v34 (((cfg2.win 3).blk t).view.emb (ix2 0 q)) = V c main_v34 (ix2 0 q)
  refine congrArg (V c main_v34) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

theorem bt_blk (c : Dev nD) (t : Fin cfg2.N) (q : Fin 128) : iblk2 V c 4 t (ix2 0 q) = V c main_v35 (ix2 0 q) := by
  obtain ⟨-, -, -, -, -, -, -, -, e0, e1, -⟩ := idx_facts t
  show V c main_v35 (((cfg2.win 4).blk t).view.emb (ix2 0 q)) = V c main_v35 (ix2 0 q)
  refine congrArg (V c main_v35) (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

theorem out_emb (t : Fin cfg2.N) (p : Fin 2000) (q : Fin 128) :
    ((cfg2.win 5).blk t).view.emb (ix2 p q) = ix2 (rowOf t p) q := by
  obtain ⟨-, -, -, -, -, -, -, -, -, -, e0, e1⟩ := idx_facts t
  refine funext fun a => Fin.ext ?_
  match a with
  | ⟨0, _⟩ => show win2_5.index t (0 : Fin 2) * 2000 + 1 * p.val = 2000 * t.val + p.val; rw [e0]; omega
  | ⟨1, _⟩ => show win2_5.index t (1 : Fin 2) * 128 + 1 * q.val = q.val; rw [e1]; omega

/-- What point t writes back is block t of G. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz]
  funext y
  obtain ⟨p, q, rfl⟩ : ∃ (p : Fin 2000) (q : Fin 128), y = ix2 p q := ⟨y 0, y 1, eq_ix2 y⟩
  refine (norm2_apply (iblk2 V c 0 t) (iblk2 V c 2 t) (iblk2 V c 3 t) (iblk2 V c 1 t) (iblk2 V c 4 t) p q).trans ?_
  rw [x_blk, mu_blk, va_blk, g_blk, bt_blk]
  show _ = G V c (((cfg2.win 5).blk t).view.emb (ix2 p q))
  rw [out_emb]
  rfl

theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v36).slice (win2_5.rect t)).set ↔ _
  rw [View.set_slice_whole, Rect.mem_set_unit]
  exact Iff.rfl

/-- Row r lies in the block of point r / 2000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [e0]; show (i 0).val / 2000 * 2000 ≤ (i 0).val ∧ (i 0).val < (i 0).val / 2000 * 2000 + 2000; omega
  | ⟨1, _⟩ =>
    show win2_5.index t (1 : Fin 2) * 128 ≤ (i 1).val ∧ (i 1).val < win2_5.index t (1 : Fin 2) * 128 + 128
    rw [e1]; omega

/-- After the last point the result array holds G. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Chain.lean ====
/-
  The kernel program's result, read through its chain of boundary contents. @main is: a stretch of host operations
  (the aggregated input X and the first bias as a one-row matrix), region 0 (the first dense layer L₁ = X·W₁ + b₁ and the
  column sums of L₁ and of its squares), a stretch (mean μ₁ = sum / 50000, variance σ₁² = sumsq / 50000 − μ₁², the gain,
  the shift and the second bias as one-row matrices), region 1 (H = the normalised, rectified L₁; L₂ = H·W₂ + b₂ and its
  column sums), a stretch (μ₂, σ₂², the second gain and shift) and region 2 (L₂ normalised and rectified). Reading each
  boundary's buffers off the one before gives the result array entry by entry as the two-layer network with the
  variances written as means of squares minus squared means.
-/
import proofs.«147491_j1151051235411_1_alg».proof.Proof.KernelRun
import proofs.«147491_j1151051235411_1_alg».proof.Proof.Region0
import proofs.«147491_j1151051235411_1_alg».proof.Proof.Region1
import proofs.«147491_j1151051235411_1_alg».proof.Proof.Region2
import proofs.«147491_j1151051235411_1_alg».proof.Proof.Gen.ReferenceIdeal.Read
import Idealize.ShloMosaic.Lib.StableHlo.Run
import Idealize.ShloMosaic.Lib.ValueLayout
import Idealize.ShloMosaic.Lib.Tactic

set_option maxRecDepth 16384

noncomputable section

namespace Cert.KernelIdeal.Chain

open Cert.KernelIdeal Cert.KernelIdeal.Gen Cert.KernelIdeal.BodyValues Cert.NormLayers
open Idealize.ShloMosaic Idealize.ShloMosaic.TcCoe Idealize.ShloMosaic.ValueIdx Idealize.ShloMosaic.Tactic Idealize.SL.Sem
open Idealize.ShloMosaic.StableHlo
open scoped BigOperators

/-- The number of rows, as the programs write it. -/
abbrev w50000 : EReal := Ideal.ofBits .f32 0x47435000#32

/-- The layer's aggregated input as the kernel program's host operations compute it: the rows of v picked by the source
    table (a negative entry counted from the end), each scaled by its edge's weight, added up into the row its
    destination entry names, plus the scalar times v. -/
def vaggK (x0 : S50000x128.Idx → EReal) (x1 x2 : IVec S800000 32) (x3 : S800000.Idx → EReal) (x4 : S1x1.Idx → EReal) :
    S50000x128.Idx → EReal :=
  addf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 x2)
      (mulf (F := Ideal)
        (Host.gather gather_S50000x128_S800000x1_S800000x128_1_0_n_n_0_1_1128 x0
          (broadcastInDim S800000x1 ![0] bcast_S800000_S800000x1_0
            (select (cmpi .slt x1 (broadcastInDim S800000 ![] bcast_S_S800000 (constantI S_ 32 0#32)))
              (addi x1 (broadcastInDim S800000 ![] bcast_S_S800000 (constantI S_ 32 50000#32))) x1)))
        (broadcastInDim S800000x128 ![0, 1] bcast_S800000x1_S800000x128_0_1
          (broadcastInDim S800000x1 ![0] bcast_S800000_S800000x1_0 x3))))
    (mulf (F := Ideal) (broadcastInDim S50000x128 ![0, 1] bcast_S1x1_S50000x128_0_1 x4) x0)

/-- The two programs spell the aggregated input with the same operations. -/
theorem vaggK_eq (x0 : S50000x128.Idx → EReal) (x1 x2 : IVec S800000 32) (x3 : S800000.Idx → EReal) (x4 : S1x1.Idx → EReal) :
    vaggK x0 x1 x2 x3 x4 = Cert.ReferenceIdeal.Read.val_main_v15 (F := Ideal) x0 x1 x2 x3 x4 := by
  unfold vaggK Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_cst Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_c_0 Cert.ReferenceIdeal.Read.val_main_v1 Cert.ReferenceIdeal.Read.val_main_v0
    Cert.ReferenceIdeal.Read.val_main_c
  rfl

variable (m : (ℓ : Loc nD τ sig) → Buf (Elt Ideal) ℓ) (ρ : Dev nD → PrngReg) (c : Dev nD)

/-! ## A one-row matrix made from a vector -/

theorem row_cast {a : ℕ} (x : (⟨1, ![a]⟩ : Shape).Idx → EReal) (h : (⟨1, ![a]⟩ : Shape).ShapeCasts ⟨2, ![1, a]⟩) :
    row (shapeCast ⟨2, ![1, a]⟩ x h) = vec x :=
  funext fun q => shapeCast_a_1a_apply x h 0 q

/-! ## After the first stretch -/

theorem W1_v15 : (W1 m ρ c (Proc.devRef .tc main_v15) : S50000x128.Idx → EReal)
    = vaggK (m ((c : Thread nD τ).loc main_arg0)) (m ((c : Thread nD τ).loc main_arg1)) (m ((c : Thread nD τ).loc main_arg2)) (m ((c : Thread nD τ).loc main_arg3)) (m ((c : Thread nD τ).loc main_arg4)) := by
  have e0 : W0 m ρ c (Proc.devRef .tc main_arg0) = (m ((c : Thread nD τ).loc main_arg0)) := rfl
  have e1 : W0 m ρ c (Proc.devRef .tc main_arg1) = (m ((c : Thread nD τ).loc main_arg1)) := rfl
  have e2 : W0 m ρ c (Proc.devRef .tc main_arg2) = (m ((c : Thread nD τ).loc main_arg2)) := rfl
  have e3 : W0 m ρ c (Proc.devRef .tc main_arg3) = (m ((c : Thread nD τ).loc main_arg3)) := rfl
  have e4 : W0 m ρ c (Proc.devRef .tc main_arg4) = (m ((c : Thread nD τ).loc main_arg4)) := rfl
  show StableHlo.after hostOps0 (W0 m ρ c) (Proc.devRef .tc main_v15) = _
  after_results_simp
  rw [e0, e1, e2, e3, e4]
  unfold vaggK
  rfl

theorem W1_v16 : (W1 m ρ c (Proc.devRef .tc main_v16) : S1x512.Idx → EReal)
    = shapeCast S1x512 (m ((c : Thread nD τ).loc main_arg6)) shapeCasts_S512_S1x512 := by
  show StableHlo.after hostOps0 (W0 m ρ c) (Proc.devRef .tc main_v16) = _
  after_results
  rfl

theorem W1_arg5 : W1 m ρ c (Proc.devRef .tc main_arg5) = (m ((c : Thread nD τ).loc main_arg5)) := by
  show StableHlo.after hostOps0 (W0 m ρ c) (Proc.devRef .tc main_arg5) = _
  after_results

theorem W1_arg7 : W1 m ρ c (Proc.devRef .tc main_arg7) = (m ((c : Thread nD τ).loc main_arg7)) := by
  show StableHlo.after hostOps0 (W0 m ρ c) (Proc.devRef .tc main_arg7) = _
  after_results

theorem W1_arg8 : W1 m ρ c (Proc.devRef .tc main_arg8) = (m ((c : Thread nD τ).loc main_arg8)) := by
  show StableHlo.after hostOps0 (W0 m ρ c) (Proc.devRef .tc main_arg8) = _
  after_results

theorem W1_arg9 : W1 m ρ c (Proc.devRef .tc main_arg9) = (m ((c : Thread nD τ).loc main_arg9)) := by
  show StableHlo.after hostOps0 (W0 m ρ c) (Proc.devRef .tc main_arg9) = _
  after_results

theorem W1_arg10 : W1 m ρ c (Proc.devRef .tc main_arg10) = (m ((c : Thread nD τ).loc main_arg10)) := by
  show StableHlo.after hostOps0 (W0 m ρ c) (Proc.devRef .tc main_arg10) = _
  after_results

theorem W1_arg11 : W1 m ρ c (Proc.devRef .tc main_arg11) = (m ((c : Thread nD τ).loc main_arg11)) := by
  show StableHlo.after hostOps0 (W0 m ρ c) (Proc.devRef .tc main_arg11) = _
  after_results

theorem W1_arg12 : W1 m ρ c (Proc.devRef .tc main_arg12) = (m ((c : Thread nD τ).loc main_arg12)) := by
  show StableHlo.after hostOps0 (W0 m ρ c) (Proc.devRef .tc main_arg12) = _
  after_results

/-- The first dense layer. -/
def L1 : Fin 50000 → Fin 512 → EReal :=
  affine (mat (vaggK (m ((c : Thread nD τ).loc main_arg0)) (m ((c : Thread nD τ).loc main_arg1)) (m ((c : Thread nD τ).loc main_arg2)) (m ((c : Thread nD τ).loc main_arg3)) (m ((c : Thread nD τ).loc main_arg4)))) (mat (m ((c : Thread nD τ).loc main_arg5))) (vec (m ((c : Thread nD τ).loc main_arg6)))

theorem L1_eq : Region0.L (V1 m ρ) c = L1 m c := by
  unfold Region0.L L1
  rw [show (V1 m ρ c main_v15 : S50000x128.Idx → EReal) = _ from W1_v15 m ρ c,
    show V1 m ρ c main_arg5 = _ from W1_arg5 m ρ c,
    show (V1 m ρ c main_v16 : S1x512.Idx → EReal) = _ from W1_v16 m ρ c, row_cast]

/-! ## After region 0 -/

theorem W2_lin : W2 m ρ c (Proc.devRef .tc main_v17_0) = Region0.Glin (V1 m ρ) c :=
  (W2_arr m ρ c 3).trans (Region0.final_lin (V1 m ρ) c)
theorem W2_sum : W2 m ρ c (Proc.devRef .tc main_v17_1) = Region0.Gsum (V1 m ρ) c :=
  (W2_arr m ρ c 4).trans (Region0.final_sum (V1 m ρ) c)
theorem W2_sq : W2 m ρ c (Proc.devRef .tc main_v17_2) = Region0.Gsq (V1 m ρ) c :=
  (W2_arr m ρ c 5).trans (Region0.final_sq (V1 m ρ) c)

theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)

/-! ## After the second stretch -/

theorem W3_lin : W3 m ρ c (Proc.devRef .tc main_v17_0) = W2 m ρ c (Proc.devRef .tc main_v17_0) := by
  show StableHlo.after hostOps1 (W2 m ρ c) (Proc.devRef .tc main_v17_0) = _
  after_results

theorem W3_v19 : (W3 m ρ c (Proc.devRef .tc main_v19) : S1x512.Idx → EReal)
    = Host.divf (F := Ideal) (W2 m ρ c (Proc.devRef .tc main_v17_1))
        (broadcastInDim S1x512 ![] bcast_S_S1x512 (constant (F := Ideal) S_ .f32 0x47435000#32)) := by
  show StableHlo.after hostOps1 (W2 m ρ c) (Proc.devRef .tc main_v19) = _
  after_results

theorem W3_v23 : (W3 m ρ c (Proc.devRef .tc main_v23) : S1x512.Idx → EReal)
    = subf (F := Ideal)
        (Host.divf (F := Ideal) (W2 m ρ c (Proc.devRef .tc main_v17_2))
          (broadcastInDim S1x512 ![] bcast_S_S1x512 (constant (F := Ideal) S_ .f32 0x47435000#32)))
        (mulf (F := Ideal)
          (Host.divf (F := Ideal) (W2 m ρ c (Proc.devRef .tc main_v17_1))
            (broadcastInDim S1x512 ![] bcast_S_S1x512 (constant (F := Ideal) S_ .f32 0x47435000#32)))
          (Host.divf (F := Ideal) (W2 m ρ c (Proc.devRef .tc main_v17_1))
            (broadcastInDim S1x512 ![] bcast_S_S1x512 (constant (F := Ideal) S_ .f32 0x47435000#32)))) := by
  show StableHlo.after hostOps1 (W2 m ρ c) (Proc.devRef .tc main_v23) = _
  after_results

theorem W3_v24 : (W3 m ρ c (Proc.devRef .tc main_v24) : S1x512.Idx → EReal)
    = shapeCast S1x512 (W2 m ρ c (Proc.devRef .tc main_arg7)) shapeCasts_S512_S1x512 := by
  show StableHlo.after hostOps1 (W2 m ρ c) (Proc.devRef .tc main_v24) = _
  after_results
  rfl
theorem W3_v25 : (W3 m ρ c (Proc.devRef .tc main_v25) : S1x512.Idx → EReal)
    = shapeCast S1x512 (W2 m ρ c (Proc.devRef .tc main_arg8)) shapeCasts_S512_S1x512 := by
  show StableHlo.after hostOps1 (W2 m ρ c) (Proc.devRef .tc main_v25) = _
  after_results
  rfl
theorem W3_v26 : (W3 m ρ c (Proc.devRef .tc main_v26) : S1x128.Idx → EReal)
    = shapeCast S1x128 (W2 m ρ c (Proc.devRef .tc main_arg10)) shapeCasts_S128_S1x128 := by
  show StableHlo.after hostOps1 (W2 m ρ c) (Proc.devRef .tc main_v26) = _
  after_results
  rfl

theorem W3_arg9 : W3 m ρ c (Proc.devRef .tc main_arg9) = (m ((c : Thread nD τ).loc main_arg9)) := by
  refine Eq.trans ?_ (W2_arg9 m ρ c)
  show StableHlo.after hostOps1 (W2 m ρ c) (Proc.devRef .tc main_arg9) = _
  after_results
theorem W3_arg11 : W3 m ρ c (Proc.devRef .tc main_arg11) = (m ((c : Thread nD τ).loc main_arg11)) := by
  refine Eq.trans ?_ (W2_arg11 m ρ c)
  show StableHlo.after hostOps1 (W2 m ρ c) (Proc.devRef .tc main_arg11) = _
  after_results
theorem W3_arg12 : W3 m ρ c (Proc.devRef .tc main_arg12) = (m ((c : Thread nD τ).loc main_arg12)) := by
  refine Eq.trans ?_ (W2_arg12 m ρ c)
  show StableHlo.after hostOps1 (W2 m ρ c) (Proc.devRef .tc main_arg12) = _
  after_results

/-- The first layer's column means, as the second stretch computes them from region 0's sums. -/
theorem mean1 : row (V3 m ρ c main_v19) = colMean w50000 (L1 m c) := by
  funext q
  have h := congrFun (W3_v19 m ρ c) (ix2 0 q)
  refine h.trans ?_
  show Ideal.div (W2 m ρ c (Proc.devRef .tc main_v17_1) (ix2 0 q)) w50000 = _
  rw [W2_sum, Region0.Gsum_apply, L1_eq]
  rfl

/-- The first layer's column variances: mean of squares minus squared mean. -/
theorem var1 : row (V3 m ρ c main_v23) = varMom w50000 (L1 m c) := by
  funext q
  have h := congrFun (W3_v23 m ρ c) (ix2 0 q)
  refine h.trans ?_
  show Ideal.div (W2 m ρ c (Proc.devRef .tc main_v17_2) (ix2 0 q)) w50000
      - Ideal.div (W2 m ρ c (Proc.devRef .tc main_v17_1) (ix2 0 q)) w50000
        * Ideal.div (W2 m ρ c (Proc.devRef .tc main_v17_1) (ix2 0 q)) w50000 = _
  rw [W2_sum, W2_sq, Region0.Gsum_apply, Region0.Gsq_apply, L1_eq]
  rfl

theorem x1 : mat (V3 m ρ c main_v17_0) = L1 m c := by
  rw [show V3 m ρ c main_v17_0 = _ from (W3_lin m ρ c).trans (W2_lin m ρ c)]
  funext r q
  exact (Region0.Glin_apply (V1 m ρ) c r q).trans (congrFun (congrFun (L1_eq m ρ c) r) q)

theorem g1 : row (V3 m ρ c main_v24) = vec (m ((c : Thread nD τ).loc main_arg7)) := by
  rw [show (V3 m ρ c main_v24 : S1x512.Idx → EReal) = _ from W3_v24 m ρ c, row_cast, W2_arg7]
theorem t1 : row (V3 m ρ c main_v25) = vec (m ((c : Thread nD τ).loc main_arg8)) := by
  rw [show (V3 m ρ c main_v25 : S1x512.Idx → EReal) = _ from W3_v25 m ρ c, row_cast, W2_arg8]
theorem b2 : row (V3 m ρ c main_v26) = vec (m ((c : Thread nD τ).loc main_arg10)) := by
  rw [show (V3 m ρ c main_v26 : S1x128.Idx → EReal) = _ from W3_v26 m ρ c, row_cast, W2_arg10]
theorem w2 : mat (V3 m ρ c main_arg9) = mat (m ((c : Thread nD τ).loc main_arg9)) := by
  rw [show V3 m ρ c main_arg9 = _ from W3_arg9 m ρ c]

/-- The second dense layer. -/
def L2 : Fin 50000 → Fin 128 → EReal :=
  affine (layerMom w50000 weps (vec (m ((c : Thread nD τ).loc main_arg7))) (vec (m ((c : Thread nD τ).loc main_arg8))) (L1 m c)) (mat (m ((c : Thread nD τ).loc main_arg9))) (vec (m ((c : Thread nD τ).loc main_arg10)))

theorem L2_eq : Region1.L (V3 m ρ) c = L2 m c := by
  unfold Region1.L Region1.H L2 layerMom
  rw [mean1, var1, x1, g1, t1, b2, w2]

/-! ## After region 1 -/

theorem W4_lin : W4 m ρ c (Proc.devRef .tc main_v27_0) = Region1.Glin (V3 m ρ) c :=
  (W4_arr m ρ c 7).trans (Region1.final_lin (V3 m ρ) c)
theorem W4_sum : W4 m ρ c (Proc.devRef .tc main_v27_1) = Region1.Gsum (V3 m ρ) c :=
  (W4_arr m ρ c 8).trans (Region1.final_sum (V3 m ρ) c)
theorem W4_sq : W4 m ρ c (Proc.devRef .tc main_v27_2) = Region1.Gsq (V3 m ρ) c :=
  (W4_arr m ρ c 9).trans (Region1.final_sq (V3 m ρ) c)

theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)

/-! ## After the third stretch -/

theorem W5_lin : W5 m ρ c (Proc.devRef .tc main_v27_0) = W4 m ρ c (Proc.devRef .tc main_v27_0) := by
  show StableHlo.after hostOps2 (W4 m ρ c) (Proc.devRef .tc main_v27_0) = _
  after_results

theorem W5_v29 : (W5 m ρ c (Proc.devRef .tc main_v29) : S1x128.Idx → EReal)
    = Host.divf (F := Ideal) (W4 m ρ c (Proc.devRef .tc main_v27_1))
        (broadcastInDim S1x128 ![] bcast_S_S1x128 (constant (F := Ideal) S_ .f32 0x47435000#32)) := by
  show StableHlo.after hostOps2 (W4 m ρ c) (Proc.devRef .tc main_v29) = _
  after_results

theorem W5_v33 : (W5 m ρ c (Proc.devRef .tc main_v33) : S1x128.Idx → EReal)
    = subf (F := Ideal)
        (Host.divf (F := Ideal) (W4 m ρ c (Proc.devRef .tc main_v27_2))
          (broadcastInDim S1x128 ![] bcast_S_S1x128 (constant (F := Ideal) S_ .f32 0x47435000#32)))
        (mulf (F := Ideal)
          (Host.divf (F := Ideal) (W4 m ρ c (Proc.devRef .tc main_v27_1))
            (broadcastInDim S1x128 ![] bcast_S_S1x128 (constant (F := Ideal) S_ .f32 0x47435000#32)))
          (Host.divf (F := Ideal) (W4 m ρ c (Proc.devRef .tc main_v27_1))
            (broadcastInDim S1x128 ![] bcast_S_S1x128 (constant (F := Ideal) S_ .f32 0x47435000#32)))) := by
  show StableHlo.after hostOps2 (W4 m ρ c) (Proc.devRef .tc main_v33) = _
  after_results

theorem W5_v34 : (W5 m ρ c (Proc.devRef .tc main_v34) : S1x128.Idx → EReal)
    = shapeCast S1x128 (W4 m ρ c (Proc.devRef .tc main_arg11)) shapeCasts_S128_S1x128 := by
  show StableHlo.after hostOps2 (W4 m ρ c) (Proc.devRef .tc main_v34) = _
  after_results
  rfl
theorem W5_v35 : (W5 m ρ c (Proc.devRef .tc main_v35) : S1x128.Idx → EReal)
    = shapeCast S1x128 (W4 m ρ c (Proc.devRef .tc main_arg12)) shapeCasts_S128_S1x128 := by
  show StableHlo.after hostOps2 (W4 m ρ c) (Proc.devRef .tc main_v35) = _
  after_results
  rfl

theorem mean2 : row (V5 m ρ c main_v29) = colMean w50000 (L2 m c) := by
  funext q
  have h := congrFun (W5_v29 m ρ c) (ix2 0 q)
  refine h.trans ?_
  show Ideal.div (W4 m ρ c (Proc.devRef .tc main_v27_1) (ix2 0 q)) w50000 = _
  rw [W4_sum, Region1.Gsum_apply, L2_eq]
  rfl

theorem var2 : row (V5 m ρ c main_v33) = varMom w50000 (L2 m c) := by
  funext q
  have h := congrFun (W5_v33 m ρ c) (ix2 0 q)
  refine h.trans ?_
  show Ideal.div (W4 m ρ c (Proc.devRef .tc main_v27_2) (ix2 0 q)) w50000
      - Ideal.div (W4 m ρ c (Proc.devRef .tc main_v27_1) (ix2 0 q)) w50000
        * Ideal.div (W4 m ρ c (Proc.devRef .tc main_v27_1) (ix2 0 q)) w50000 = _
  rw [W4_sum, W4_sq, Region1.Gsum_apply, Region1.Gsq_apply, L2_eq]
  rfl

theorem x2 : mat (V5 m ρ c main_v27_0) = L2 m c := by
  rw [show V5 m ρ c main_v27_0 = _ from (W5_lin m ρ c).trans (W4_lin m ρ c)]
  funext r q
  exact (Region1.Glin_apply (V3 m ρ) c r q).trans (congrFun (congrFun (L2_eq m ρ c) r) q)

theorem g2 : row (V5 m ρ c main_v34) = vec (m ((c : Thread nD τ).loc main_arg11)) := by
  rw [show (V5 m ρ c main_v34 : S1x128.Idx → EReal) = _ from W5_v34 m ρ c, row_cast, W4_arg11]
theorem t2 : row (V5 m ρ c main_v35) = vec (m ((c : Thread nD τ).loc main_arg12)) := by
  rw [show (V5 m ρ c main_v35 : S1x128.Idx → EReal) = _ from W5_v35 m ρ c, row_cast, W4_arg12]

/-! ## After region 2: the result -/

/-- The result array, entry by entry: the two-layer network, each variance a mean of squares minus a squared mean. -/
theorem result_at (r : Fin 50000) (q : Fin 128) :
    (W6 m ρ c (Proc.devRef .tc main_v36) : S50000x128.Idx → EReal) (ix2 r q)
      = netMom w50000 weps (mat (vaggK (m ((c : Thread nD τ).loc main_arg0)) (m ((c : Thread nD τ).loc main_arg1)) (m ((c : Thread nD τ).loc main_arg2)) (m ((c : Thread nD τ).loc main_arg3)) (m ((c : Thread nD τ).loc main_arg4)))) (mat (m ((c : Thread nD τ).loc main_arg5))) (vec (m ((c : Thread nD τ).loc main_arg6))) (vec (m ((c : Thread nD τ).loc main_arg7))) (vec (m ((c : Thread nD τ).loc main_arg8)))
          (mat (m ((c : Thread nD τ).loc main_arg9))) (vec (m ((c : Thread nD τ).loc main_arg10))) (vec (m ((c : Thread nD τ).loc main_arg11))) (vec (m ((c : Thread nD τ).loc main_arg12))) r q := by
  have h6 : W6 m ρ c (Proc.devRef .tc main_v36) = Region2.G (V5 m ρ) c :=
    (W6_arr m ρ c 5).trans (Region2.final (V5 m ρ) c)
  rw [h6]
  show normRelu weps (row (V5 m ρ c main_v34)) (row (V5 m ρ c main_v35)) (row (V5 m ρ c main_v29)) (row (V5 m ρ c main_v33))
      (mat (V5 m ρ c main_v27_0)) r q = _
  rw [g2, t2, mean2, var2, x2]
  rfl

end Cert.KernelIdeal.Chain

end
-- ==== Proof.lean ====
/-
  A graph layer followed by two dense layers, each normalised over the 50000 rows and rectified: the kernel program
  against its reference, on extended reals.

  Both programs first form the aggregated input X = (sum over the edges into a row of weight · source row) + ε · v with the
  same host operations. The kernel then runs three pipelined regions over blocks of 2000 rows: the first computes
  L₁ = X·W₁ + b₁ block by block and accumulates the column sums of L₁ and of its squares across the 25 blocks; the host
  turns the sums into the mean μ₁ and the variance σ₁² = (∑ L₁²)/n − μ₁²; the second normalises and rectifies each block
  of L₁, multiplies by W₂, adds b₂ and accumulates the same sums for L₂; the third normalises and rectifies L₂. The
  reference computes L₁ at once, takes the mean over the rows and the variance as the mean of the squared deviations
  (∑ (L₁ − μ₁)²)/n, and so on. A product with a zero accumulator is a plain sum of products, a sum over blocks of rows is
  the sum over all rows, and narrowing a float format is no change on exact values, so the two sides differ only in the
  formula for the variance. Those two formulas agree on real numbers and differ at infinities; under the precondition
  every float input is real, hence X, L₁, the normalised first layer (its variance is non-negative, so the reciprocal square
  root of variance + ε is real) and L₂ are real, and the results are equal entry by entry.

  Termination without a fault and the unchanged arguments are, for the two kernel programs, the imported generated frame
  theorems, and for the reference its generated run; the idealised kernel is the kernel's own text read on extended reals.
-/
import proofs.«147491_j1151051235411_1_alg».proof.Defs
import proofs.«147491_j1151051235411_1_alg».proof.Proof.Gen.Kernel
import proofs.«147491_j1151051235411_1_alg».proof.Proof.Gen.Kernel.Skeleton
import proofs.«147491_j1151051235411_1_alg».proof.Proof.Gen.Kernel.Launch
import proofs.«147491_j1151051235411_1_alg».proof.Proof.Gen.Kernel.Points
import proofs.«147491_j1151051235411_1_alg».proof.Proof.Gen.Kernel.Frame
import proofs.«147491_j1151051235411_1_alg».proof.Proof.Gen.KernelIdeal
import proofs.«147491_j1151051235411_1_alg».proof.Proof.Gen.KernelIdeal.Skeleton
import proofs.«147491_j1151051235411_1_alg».proof.Proof.Gen.KernelIdeal.Launch
import proofs.«147491_j1151051235411_1_alg».proof.Proof.Gen.KernelIdeal.Points
import proofs.«147491_j1151051235411_1_alg».proof.Proof.Gen.KernelIdeal.Frame
import proofs.«147491_j1151051235411_1_alg».proof.Proof.Gen.ReferenceIdeal
import proofs.«147491_j1151051235411_1_alg».proof.Proof.Gen.ReferenceIdeal.Run
import proofs.«147491_j1151051235411_1_alg».proof.Proof.Gen.ReferenceIdeal.Read
import proofs.«147491_j1151051235411_1_alg».proof.Proof.Gen.Pre_finite_inputs
import proofs.«147491_j1151051235411_1_alg».proof.Proof.NormLayers
import proofs.«147491_j1151051235411_1_alg».proof.Proof.FiniteArgs
import proofs.«147491_j1151051235411_1_alg».proof.Proof.RefStages
import proofs.«147491_j1151051235411_1_alg».proof.Proof.KernelRun
import proofs.«147491_j1151051235411_1_alg».proof.Proof.Chain
import Idealize.ShloMosaic.Adequacy
import Idealize.ShloMosaic.Init

noncomputable section

namespace Cert.Proof

open Idealize.ShloMosaic Idealize.ShloMosaic.TcCoe Idealize.SL.Sem Idealize.ShloMosaic.ValueIdx
open Cert.NormLayers Cert.LibMoments

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the network with each variance a mean of squares minus a squared mean, the
    reference's at the network with each variance a mean of squared deviations, of arguments that agree and are real:
    one function. -/
theorem algebraic : Cert.algebraic_KernelIdeal_ReferenceIdeal := by
  intro m ρ m' ρ' hpre hagree
  refine ⟨fun c => Cert.KernelIdeal.Gen.W6 m ρ c (Proc.devRef .tc Cert.KernelIdeal.main_v36),
    Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  have hres : Cert.ReferenceIdeal.Value.res_main_v75 m' c
      = Cert.ReferenceIdeal.Read.val_main_v75 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) := by
    rw [Cert.ReferenceIdeal.Read.val_main_v75_eq]
    obtain ⟨e0, e1, e2, e3, e4, e5, e6, e7, e8, e9, e10, e11, e12⟩ := hagree c
    rw [e0, e1, e2, e3, e4, e5, e6, e7, e8, e9, e10, e11, e12]
  refine hres.trans ?_
  have h0 := Cert.FiniteArgs.real_arg0 m c hpre
  have h3 := Cert.FiniteArgs.real_arg3 m c hpre
  have h4 := Cert.FiniteArgs.real_arg4 m c hpre
  have h5 := Cert.FiniteArgs.real_arg5 m c hpre
  have h6 := Cert.FiniteArgs.real_arg6 m c hpre
  have h7 := Cert.FiniteArgs.real_arg7 m c hpre
  have h8 := Cert.FiniteArgs.real_arg8 m c hpre
  have h9 := Cert.FiniteArgs.real_arg9 m c hpre
  have h10 := Cert.FiniteArgs.real_arg10 m c hpre
  obtain ⟨e', he', he⟩ := Cert.LibMoments.ofBits_eps
  have hc : Cert.KernelIdeal.Chain.w50000 = (((50000 : ℕ) : ℝ) : EReal) := by
    rw [show Cert.KernelIdeal.Chain.w50000 = ((50000 : ℝ) : EReal) from Cert.LibMoments.ofBits_50000]; norm_num
  have hnet := netMom_eq_netDev Cert.KernelIdeal.Chain.w50000 Cert.KernelIdeal.BodyValues.weps hc (by norm_num) e' he he'
    (mat (Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))))
    (mat (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))) (vec (m ((c.tc : Thread Cert.KernelIdeal.nD Cert.KernelIdeal.τ).loc Cert.KernelIdeal.main_arg8))) (mat (m ((c.tc : Thread Cert.KernelIdeal.nD Cert.KernelIdeal.τ).loc Cert.KernelIdeal.main_arg9))) (vec (m ((c.tc : Thread Cert.KernelIdeal.nD Cert.KernelIdeal.τ).loc Cert.KernelIdeal.main_arg10))) (vec (m ((c.tc : Thread Cert.KernelIdeal.nD Cert.KernelIdeal.τ).loc Cert.KernelIdeal.main_arg11))) (vec (m ((c.tc : Thread Cert.KernelIdeal.nD Cert.KernelIdeal.τ).loc Cert.KernelIdeal.main_arg12)))
    (fun r k => Cert.ReferenceIdeal.RefStages.isR_vagg _ _ _ _ _ h0 h3 h4 (ix2 r k))
    (fun k q => h5 (ix2 k q)) (fun q => h6 (ix1 q)) (fun q => h7 (ix1 q)) (fun q => h8 (ix1 q))
    (fun k q => h9 (ix2 k q)) (fun q => h10 (ix1 q))
  funext i
  obtain ⟨r, q, rfl⟩ : ∃ (r : Fin 50000) (q : Fin 128), i = ix2 r q := ⟨i 0, i 1, eq_ix2 i⟩
  refine (Cert.ReferenceIdeal.RefStages.result_at _ _ _ _ _ _ _ _ _ _ _ _ _ r q).trans ?_
  refine Eq.trans ?_ (Cert.KernelIdeal.Chain.result_at m ρ c r q).symm
  rw [Cert.KernelIdeal.Chain.vaggK_eq]
  exact (congrFun (congrFun hnet r) q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
